-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S32x2048 : Shape := ⟨2, ![32, 2048]⟩
abbrev S1024x1024 : Shape := ⟨2, ![1024, 1024]⟩
abbrev S1x1024 : Shape := ⟨2, ![1, 1024]⟩
abbrev S_ : Shape := ⟨0, ![]⟩
abbrev S32 : Shape := ⟨1, ![32]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S32x2048 : S_.BroadcastsInDim S32x2048 (![] : Fin 0 → Fin S32x2048.rank)
  reducesTo_S32x2048_S32_d1 : S32x2048.ReducesTo [1] S32
  reducesTo_S32_S_d0 : S32.ReducesTo [0] S_

variable [Facts]

def fn_part1 {F : FTy → Type} [FloatOps F] (main_arg1 : IVec S32x2048 32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_c_6 : IVec S_ 32 := constantI S_ 32 0#32
  let main_v19 : IVec S32x2048 32 := broadcastInDim S32x2048 ![] bcast_S_S32x2048 main_c_6
  let main_v20 : IVec S32x2048 1 := cmpi .ne main_arg1 main_v19
  let main_c_7 : IVec S_ 1 := constantI S_ 1 0#1
  let main_v21 : IVec S32 1 := (fun x v => Host.reduce IntOp.ori x v reducesTo_S32x2048_S32_d1 h_S_) main_v20 main_c_7
  let main_c_8 : IVec S_ 1 := constantI S_ 1 1#1
  let main_v22 : IVec S_ 1 := (fun x v => Host.reduce IntOp.andi x v reducesTo_S32_S_d0 h_S_) main_v21 main_c_8
  let main_v23 : IVec S_ 1 := andi main_v18 main_v22
  main_v23

def fn {F : FTy → Type} [FloatOps F] (main_arg0 : FVec F S32x2048x1024 .f32) (main_arg1 : IVec S32x2048 32) (main_arg2 : FVec F S1024x1024 .f32) (main_arg3 : FVec F S1024x1024 .f32) (main_arg4 : FVec F S1x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg1 main_v13 main_v16
-- ==== Kernel.lean ====
abbrev S32x2048x1024 : Shape := ⟨3, ![32, 2048, 1024]⟩
abbrev S32x2048 : Shape := ⟨2, ![32, 2048]⟩
abbrev S1024x1024 : Shape := ⟨2, ![1024, 1024]⟩
abbrev S1x1024 : Shape := ⟨2, ![1, 1024]⟩
abbrev S32x2048x1 : Shape := ⟨3, ![32, 2048, 1]⟩
abbrev S32x1024 : Shape := ⟨2, ![32, 1024]⟩
abbrev S8x128x1024 : Shape := ⟨3, ![8, 128, 1024]⟩
abbrev S8x128x1 : Shape := ⟨3, ![8, 128, 1]⟩
abbrev S8x1024 : Shape := ⟨2, ![8, 1024]⟩
abbrev S8x1 : Shape := ⟨2, ![8, 1]⟩
abbrev S1024 : Shape := ⟨1, ![1024]⟩
abbrev S1024x1 : Shape := ⟨2, ![1024, 1]⟩
abbrev S8x1x1 : Shape := ⟨3, ![8, 1, 1]⟩

abbrev nBuf : Space → Nat
  | .hbm => 10
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S32x2048x1, .i32⟩
  | .hbm, ⟨9, _⟩ => ⟨S32x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x128x1, .i32⟩
  | .local _ .vmem, ⟨3, _⟩ => ⟨S8x128x1, .i32⟩
  | .local _ .vmem, ⟨4, _⟩ => ⟨S1024x1024, .bf16⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S8x1, .f32⟩
  | .local _ .vmem, ⟨9, _⟩ => ⟨S8x1, .f32⟩
  | .local _ .vmem, ⟨10, _⟩ => ⟨S8x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v51 : BitVec 1 := Scalar.cmpi .eq arg1 c15_i32
  let v52 : BitVec 32 := Scalar.extui v51
  let c0_i32_28 : BitVec 32 := 0#32
  let v53 : BitVec 1 := Scalar.cmpi .ne v52 c0_i32_28
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1024x1024_S1024x1024_1_0 : S1024x1024.Transposes [1, 0] S1024x1024
  bitsLt_bf16_f32 : FTy.bits .bf16 < FTy.bits .f32
  bcast_S32x2048_S32x2048x1_0_1 : S32x2048.BroadcastsInDim S32x2048x1 (![0, 1] : Fin 2 → Fin S32x2048x1.rank)
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S1024x1024 : S8x128x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  reduces_S1024x1024_S1024 : S1024x1024.Reduces [1] S1024
  shapeCasts_S1024_S1024x1 : S1024.ShapeCasts S1024x1
  shapeCasts_S1024x1_S8x128x1 : S1024x1.ShapeCasts S8x128x1
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  reduces_S8x128x1_S8x1 : S8x128x1.Reduces [1] S8x1
  shapeCasts_S8x1_S8x1x1 : S8x1.ShapeCasts S8x1x1
  broadcasts_S8x1x1_S8x128x1 : S8x1x1.Broadcasts S8x128x1
  broadcasts_S8x128x1_S8x128x1024 : S8x128x1.Broadcasts S8x128x1024
  reduces_S8x128x1024_S8x1024 : S8x128x1024.Reduces [1] S8x1024
  broadcasts_S8x1_S8x1024 : S8x1.Broadcasts S8x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x2048x1024.size a
  hwx0_0 : ∀ i : grid0.Coords, EltTy.bits .f32 = 32 ∨ (Rect.block (s := S32x2048x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1.size a ≤ S32x2048x1.size a
  hwx0_1 : ∀ i : grid0.Coords, EltTy.bits .i32 = 32 ∨ (Rect.block (s := S32x2048x1) S8x128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S32x1024.size a
  hwx0_4 : ∀ i : grid0.Coords, EltTy.bits .f32 = 32 ∨ (Rect.block (s := S32x1024) S8x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S32x2048 : Shape := ⟨2, ![32, 2048]⟩
abbrev S1024x1024 : Shape := ⟨2, ![1024, 1024]⟩
abbrev S1x1024 : Shape := ⟨2, ![1, 1024]⟩
abbrev S32x2048x1 : Shape := ⟨3, ![32, 2048, 1]⟩
abbrev S_ : Shape := ⟨0, ![]⟩
abbrev S32x1 : Shape := ⟨2, ![32, 1]⟩
abbrev S32x1x1 : Shape := ⟨3, ![32, 1, 1]⟩
abbrev S32x1024 : Shape := ⟨2, ![32, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S32x2048x1024, .f32⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S32x2048x1, .f32⟩
  | .hbm, ⟨10, _⟩ => ⟨S32x2048x1, .i32⟩
  | .hbm, ⟨11, _⟩ => ⟨S_, .i32⟩
  | .hbm, ⟨12, _⟩ => ⟨S32x2048x1, .i32⟩
  | .hbm, ⟨13, _⟩ => ⟨S32x2048x1, .i1⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x1, .f32⟩
  | .hbm, ⟨19, _⟩ => ⟨S_, .f32⟩
  | .hbm, ⟨20, _⟩ => ⟨S32x1, .f32⟩
  | .hbm, ⟨21, _⟩ => ⟨S32x1, .f32⟩
  | .hbm, ⟨22, _⟩ => ⟨S32x1x1, .f32⟩
  | .hbm, ⟨23, _⟩ => ⟨S32x2048x1, .f32⟩
  | .hbm, ⟨24, _⟩ => ⟨S32x2048x1, .f32⟩
  | .hbm, ⟨25, _⟩ => ⟨S32x2048x1, .f32⟩
  | .hbm, ⟨26, _⟩ => ⟨S_, .f32⟩
  | .hbm, ⟨27, _⟩ => ⟨S32x1, .f32⟩
  | .hbm, ⟨28, _⟩ => ⟨S32x1x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S_, .f32⟩
  | .hbm, ⟨34, _⟩ => ⟨S32x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  bcast_S32x2048x1_S32x2048x1024_0_1_2 : S32x2048x1.BroadcastsInDim S32x2048x1024 (![0, 1, 2] : Fin 3 → Fin S32x2048x1024.rank)
  reducesTo_S32x2048x1024_S32x1024_d1 : S32x2048x1024.ReducesTo [1] S32x1024
  dot_S32x2048x1024_S1024x1024_S32x2048x1024_2_1_01_0_n_n_wf : DotDims.WF S32x2048x1024 S1024x1024 S32x2048x1024 [2] [1] [0, 1] [0] [] []
  dot_S32x2048x1024_S1x1024_S32x2048x1_2_1_01_0_n_n_wf : DotDims.WF S32x2048x1024 S1x1024 S32x2048x1 [2] [1] [0, 1] [0] [] []

variable [Facts₀]

def dot_S32x2048x1024_S1024x1024_S32x2048x1024_2_1_01_0_n_n : DotDims S32x2048x1024 S1024x1024 S32x2048x1024 where
  lhsContracting := [2]
  rhsContracting := [1]
  lhsNonContracting := [0, 1]
  rhsNonContracting := [0]
  lhsBatch := []
  rhsBatch := []
  wf := dot_S32x2048x1024_S1024x1024_S32x2048x1024_2_1_01_0_n_n_wf
def dot_S32x2048x1024_S1x1024_S32x2048x1_2_1_01_0_n_n : DotDims S32x2048x1024 S1x1024 S32x2048x1 where
  lhsContracting := [2]
  rhsContracting := [1]
  lhsNonContracting := [0, 1]
  rhsNonContracting := [0]
  lhsBatch := []
  rhsBatch := []
  wf := dot_S32x2048x1024_S1x1024_S32x2048x1_2_1_01_0_n_n_wf

class Facts : Prop extends Facts₀ where

variable [Facts]
-- ==== Proof.Spec.lean ====
/-
  The mathematics of attention pooling, free of any program.

  A batch of 32 rows, each of 2048 positions with 1024 features x b j e. Position j of row b gets a score: −∞ when its
  mask word is zero, and otherwise the sum over the 1024 units u of tanh (q b j u) · v u, where q b j u is the
  projection of the position's features onto unit u. The pooled feature e of row b is the softmax of the row's scores
  against the features: with M the largest score of the row,

      pooled b e = Σ_j  exp (s_j − M) / (Σ_j' exp (s_j' − M)) · x b j e.

  Everything is an extended real; exp (−∞) = 0, so a masked position has weight 0.
-/
import Idealize.ShloMosaic.PureOps.Ideal
import Idealize.ShloMosaic.Lib.ValueIdx

noncomputable section

namespace Cert.Pool

open Idealize.ShloMosaic
open scoped BigOperators

/-- The score of position j of row b: −∞ where the mask word is zero, else Σ_u tanh (q b j u) · v u. -/
def score (msk : Fin 32 → Fin 2048 → BitVec 32) (q : Fin 32 → Fin 2048 → Fin 1024 → EReal) (v : Fin 1024 → EReal)
    (b : Fin 32) (j : Fin 2048) : EReal :=
  if msk b j = 0#32 then ⊥ else ∑ u : Fin 1024, Ideal.tanh (q b j u) * v u

/-- The softmax-pooled feature e of row b: Σ_j exp (s_j − M) / (Σ_j' exp (s_j' − M)) · x b j e, M the row's largest score. -/
def pooled (sc : Fin 32 → Fin 2048 → EReal) (x : Fin 32 → Fin 2048 → Fin 1024 → EReal) (b : Fin 32) (e : Fin 1024) : EReal :=
  ∑ j : Fin 2048, Ideal.div (Ideal.exp (sc b j - Finset.univ.sup (sc b)))
    (∑ j' : Fin 2048, Ideal.exp (sc b j' - Finset.univ.sup (sc b))) * x b j e

/-- The projection as two products added: Σ_e x b j e · W u e + Σ_e x b j e · U u e. -/
def projSplit (x : Fin 32 → Fin 2048 → Fin 1024 → EReal) (W U : Fin 1024 → Fin 1024 → EReal)
    (b : Fin 32) (j : Fin 2048) (u : Fin 1024) : EReal :=
  (∑ e : Fin 1024, x b j e * W u e) + ∑ e : Fin 1024, x b j e * U u e

/-- The projection by the merged matrix: Σ_e x b j e · (W u e + U u e). -/
def projMerged (x : Fin 32 → Fin 2048 → Fin 1024 → EReal) (W U : Fin 1024 → Fin 1024 → EReal)
    (b : Fin 32) (j : Fin 2048) (u : Fin 1024) : EReal :=
  ∑ e : Fin 1024, x b j e * (W u e + U u e)

end Cert.Pool

end
-- ==== Proof.KArgs.lean ====
/-
  The kernel's argument arrays as coordinate functions, and the score every position gets from them.

  x b j e are the features (32 rows × 2048 positions × 1024 features), the mask word of position j of row b, the two
  1024 × 1024 weight matrices W u e and U u e (unit × feature), and the scoring vector v u. The kernel projects with the
  merged matrix: q b j u = Σ_e x b j e · (W u e + U u e).
-/
import proofs.«120756_j43568148251343_2_alg».proof.KernelIdeal
import proofs.«120756_j43568148251343_2_alg».proof.Proof.Spec
import Idealize.ShloMosaic.Lib.ValueIdx

noncomputable section

namespace Cert.KernelIdeal.Args

open Idealize.ShloMosaic Idealize.ShloMosaic.ValueIdx Idealize.ShloMosaic.TcCoe Idealize.SL.Sem
open Cert.KernelIdeal

variable (m : (ℓ : Loc nD τ sig) → Buf (Elt Ideal) ℓ) (c : Dev nD)

/-- The features. -/
def X : Fin 32 → Fin 2048 → Fin 1024 → EReal := fun b j e => m ((c : Thread nD τ).loc main_arg0) (ix3 b j e)
/-- The mask words. -/
def MK : Fin 32 → Fin 2048 → BitVec 32 := fun b j => m ((c : Thread nD τ).loc main_arg1) (ix2 b j)
/-- The first weight matrix, unit × feature. -/
def Wm : Fin 1024 → Fin 1024 → EReal := fun u e => m ((c : Thread nD τ).loc main_arg2) (ix2 u e)
/-- The second weight matrix, unit × feature. -/
def Um : Fin 1024 → Fin 1024 → EReal := fun u e => m ((c : Thread nD τ).loc main_arg3) (ix2 u e)
/-- The scoring vector. -/
def Vv : Fin 1024 → EReal := fun u => m ((c : Thread nD τ).loc main_arg4) (ix2 0 u)

/-- The score of every position, as the kernel computes it: masked, projected by the merged matrix. -/
def scK : Fin 32 → Fin 2048 → EReal :=
  Cert.Pool.score (MK m c) (Cert.Pool.projMerged (X m c) (Wm m c) (Um m c)) (Vv m c)

end Cert.KernelIdeal.Args

end
-- ==== Proof.LibRealOps.lean ====
/-
  Real numbers inside the extended reals: the facts that carry "every value is a real number" through a program.

  A program read over the extended reals is exact, but its algebra is the reals' only where no infinity occurs:
  distributivity and cancellation fail at an infinite factor. A precondition that every input is finite therefore has
  to be carried through the program: each intermediate is shown to be the coercion of a real, and the law wanted is then
  the reals'. This file has the two element tests a printed precondition is made of (|x| < +infinity says x is a real;
  v >= 0 says what it says), and the closure of the reals under what such programs do to them: a finite sum (this
  Mathlib has no coercion lemma for it), a sum of products (a matrix product's entry) onto a real accumulator, a quotient
  by a non-zero real, a maximum, and a square root of a non-negative real.
-/
import Idealize.ShloMosaic.PureOps.Ideal

noncomputable section

namespace Idealize.ShloMosaic.RealOps

open Idealize.ShloMosaic

/-! ## The element tests of a precondition -/

/-- The f32 pattern of +infinity denotes the top element. -/
theorem ofBits_pos_inf : Ideal.ofBits .f32 0x7F800000#32 = (⊤ : EReal) := by
  simp [Ideal.ofBits, Ideal.ieee]

/-- An extended real is below the top in absolute value exactly when it is a real number. -/
theorem abs_lt_top_iff (x : EReal) : max x (-x) < ⊤ ↔ ∃ r : ℝ, x = (r : EReal) := by
  induction x using EReal.rec with
  | bot => simp
  | coe r =>
    refine ⟨fun _ => ⟨r, rfl⟩, fun _ => ?_⟩
    rw [← EReal.coe_neg, max_lt_iff]
    exact ⟨EReal.coe_lt_top r, EReal.coe_lt_top (-r)⟩
  | top => simp

/-- The finiteness test as a program prints it: the comparison "|x| < +infinity" answers 1 exactly when x is a real. -/
theorem cmp_abs_lt_inf (x : EReal) :
    Ideal.cmp .olt (max x (-x)) (Ideal.ofBits .f32 0x7F800000#32) = 1#1 ↔ ∃ r : ℝ, x = (r : EReal) := by
  rw [ofBits_pos_inf, ← abs_lt_top_iff]
  unfold Ideal.cmp
  by_cases h : max x (-x) < ⊤ <;> simp [h]

/-- The sign test as a program prints it: "v >= 0" answers 1 exactly when 0 <= v. -/
theorem cmp_ge_zero (v : EReal) : Ideal.cmp .oge v 0 = 1#1 ↔ 0 ≤ v := by
  unfold Ideal.cmp
  by_cases h : (0 : EReal) ≤ v <;> simp [h]

/-! ## Closure of the reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, taken on the extended reals, is the real sum of products. -/
theorem sum_mul_coe {ι : Type*} (s : Finset ι) (a b : ι → ℝ) :
    ∑ k ∈ s, (a k : EReal) * (b k : EReal) = ((∑ k ∈ s, a k * b k : ℝ) : EReal) := by
  rw [coe_sum]
  exact Finset.sum_congr rfl fun k _ => (EReal.coe_mul _ _).symm

/-- The same onto a real accumulator: an entry of a matrix product of real matrices is a real. -/
theorem acc_add_sum_mul_coe {ι : Type*} (s : Finset ι) (acc : ℝ) (a b : ι → ℝ) :
    (acc : EReal) + ∑ k ∈ s, (a k : EReal) * (b k : EReal) = ((acc + ∑ k ∈ s, a k * b k : ℝ) : EReal) := by
  rw [sum_mul_coe, EReal.coe_add]

/-- A quotient of reals by a non-zero real, as a program takes it, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A maximum of reals is the real maximum. -/
theorem max_coe (a b : ℝ) : max (a : EReal) (b : EReal) = ((max a b : ℝ) : EReal) :=
  (EReal.coe_strictMono.monotone.map_max).symm

/-- The square root of a non-negative real, as a program takes it, is the real square root. -/
theorem sqrt_coe_of_nonneg {r : ℝ} (hr : 0 ≤ r) : Ideal.sqrt (r : EReal) = ((Real.sqrt r : ℝ) : EReal) := by
  show (if r < 0 then (⊥ : EReal) else (Real.sqrt r : EReal)) = _
  rw [if_neg (not_lt.2 hr)]

end Idealize.ShloMosaic.RealOps

end
-- ==== Proof.PreFacts.lean ====
/-
  What the precondition says, entry by entry.

  The precondition is a conjunction of five tests of the inputs.  Four of them say of a real-valued input x that
  |x| < +infinity at every entry: the absolute value is compared with the word of +infinity, and the bits that come
  out are reduced by "and", from 1, over all axes.  The fifth says of the integer mask m that every row has a non-zero
  word: m is compared with 0 word by word, the bits of a row are reduced by "or", from 0, along the row, and the bits
  of the rows are reduced by "and", from 1.

  A conjunction of bits that is 1 has every bit 1, so each of the five reductions is 1.  A reduction by "and" that is
  1 met only 1s: every entry passes its test, and on the extended reals |x| < +infinity says that x is a real number.
  A reduction by "or" from 0 that is 1 met a 1: some word of the row is not 0.
-/
import proofs.«120756_j43568148251343_2_alg».proof.Pre_finite_inputs
import proofs.«120756_j43568148251343_2_alg».proof.Proof.Gen.Pre_finite_inputs
import proofs.«120756_j43568148251343_2_alg».proof.Proof.LibRealOps
import Idealize.ShloMosaic.Lib.ReduceAll
import Idealize.ShloMosaic.Lib.ValueIdx

noncomputable section

namespace Cert.PreFacts

open Idealize.ShloMosaic Idealize.ShloMosaic.ValueIdx

/-- The shape with no axes has one index. -/
instance : Subsingleton Cert.Pre_finite_inputs.S_.Idx := ⟨fun a b => funext fun d => d.elim0⟩

/-! ## A reduction by "or" that is 1 -/

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- A reduction by "or", started at 0, that is 1 at the result index j had a 1 at some operand index that reduces
    into j. -/
theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_eq_one x _ _ e with h0 | ⟨i, hi, hx⟩
  · rw [hinit] at h0
    exact absurd h0 (by decide)
  · rw [List.mem_filter] at hi
    exact ⟨i, by simpa using hi.2, hx⟩

/-! ## The five tests -/

/-- The test of a real-valued input at an entry: where the bit "|x| < +infinity" is 1, x is a real number.  The
    array c the absolute value is compared with holds the word of +infinity at every entry. -/
theorem real_of_test {s : Shape} (a : FVec Ideal s .f32) (c : FVec Ideal s .f32)
    (hc : ∀ i, c i = Ideal.ofBits .f32 0x7F800000#32) (i : s.Idx)
    (e : cmpf .olt (Host.absf a) c i = 1#1) : ∃ r : ℝ, a i = (r : EReal) := by
  refine (RealOps.cmp_abs_lt_inf (a i)).1 ?_
  rw [← hc i]
  exact e

/-- Where the precondition holds, every entry of the four real-valued inputs is a real number, and every row of the
    mask has a non-zero word. -/
theorem pre_facts [Cert.Pre_finite_inputs.Facts]
    (a0 : FVec Ideal Cert.Pre_finite_inputs.S32x2048x1024 .f32) (a1 : IVec Cert.Pre_finite_inputs.S32x2048 32)
    (a2 a3 : FVec Ideal Cert.Pre_finite_inputs.S1024x1024 .f32) (a4 : FVec Ideal Cert.Pre_finite_inputs.S1x1024 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ b : Fin 32, ∃ j : Fin 2048, a1 (ValueIdx.ix2 b j) ≠ 0#32) := by
  have h0 := congrFun h ValueIdx.ix0
  dsimp only [Cert.Pre_finite_inputs.fn, Cert.Pre_finite_inputs.fn_part1] at h0
  -- the conjunction of the five bits is 1: each is
  obtain ⟨h0123, hm⟩ := IntOp.andi_eq_one.1 h0
  obtain ⟨h012, h4⟩ := IntOp.andi_eq_one.1 h0123
  obtain ⟨h01, h3⟩ := IntOp.andi_eq_one.1 h012
  obtain ⟨h0', h2⟩ := IntOp.andi_eq_one.1 h01
  refine ⟨fun i => ?_, fun i => ?_, fun i => ?_, fun i => ?_, fun b => ?_⟩
  · exact real_of_test a0 _ (fun _ => rfl) i (Host.reduce_andi_all _ _ _ _ _ h0' i)
  · exact real_of_test a2 _ (fun _ => rfl) i (Host.reduce_andi_all _ _ _ _ _ h2 i)
  · exact real_of_test a3 _ (fun _ => rfl) i (Host.reduce_andi_all _ _ _ _ _ h3 i)
  · exact real_of_test a4 _ (fun _ => rfl) i (Host.reduce_andi_all _ _ _ _ _ h4 i)
  · -- the bit of row b is 1, so the row has an index whose comparison with 0 is 1
    have hb := Host.reduce_andi_all _ _ _ _ _ hm (ix1 b)
    obtain ⟨i, hdrop, hi⟩ := reduce_ori_eq_one _ _ _ _ rfl _ hb
    have hne : a1 i ≠ 0#32 := IntOp.cmpi_ne.1 hi
    -- that index lies in row b
    have h0b : i 0 = b := by
      have e := congrArg (fun j : Cert.Pre_finite_inputs.S32.Idx => (j 0 : Nat)) hdrop
      exact Fin.ext ((Shape.ReducesTo.drop_apply_val_of_eq _ i 0 0).symm.trans e)
    have hi2 : i = ix2 b (i 1) := by
      funext d
      match d with
      | ⟨0, _⟩ => exact h0b
      | ⟨1, _⟩ => rfl
    exact ⟨i 1, fun e => hne (by rw [hi2]; exact e)⟩

end Cert.PreFacts

end
-- ==== Proof.LibHostMax.lean ====
/-
  A maximum along one axis of a rank-three array, read at an index, on the extended reals.

  A one-operand reduction whose body is the maximum, taken from a rank-zero start value over one axis of an
  a × b × c array x, is at every result index the fold of max, from the start value's only element, over the
  coordinates of that axis — in any order, because max commutes and associates.  Over the last axis, read at (p, q):
  the fold over k of x (p, q, k).  Over the middle axis, read at (p, r): the fold over k of x (p, k, r).  The index
  of the array that a result index with the coordinate k put back on the reduced axis names is (p, q, k), resp.
  (p, k, r).  All for any extents; nothing is evaluated.
-/
import Idealize.ShloMosaic.Lib.ValueIdx
import Idealize.ShloMosaic.PureOps.Reduce
import Idealize.ShloMosaic.PureOps.Ideal.Laws

noncomputable section

namespace Cert.LibHostMax

open Idealize.ShloMosaic Idealize.ShloMosaic.ValueIdx

variable {a b c : ℕ}

/-- Over (p, q), the coordinate k put on the last axis: the index (p, q, k). -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- Over (p, r), the coordinate k put on the middle axis: the index (p, k, r). -/
theorem lift_mid3 (h : (⟨3, ![a, b, c]⟩ : Shape).Reduces [1] ⟨2, ![a, c]⟩) (p : Fin a) (r : Fin c) (k : Fin b) :
    h.lift (ix2 p r) k = ix3 p k r := by
  funext d
  match d with
  | ⟨0, _⟩ => exact Fin.ext rfl
  | ⟨1, _⟩ => exact Fin.ext rfl
  | ⟨2, _⟩ => exact Fin.ext rfl

/-- The maximum along the last axis, read at (p, q): the fold of max over the entries x (p, q, k) from the start value. -/
theorem hostMax_last3 (x : (⟨3, ![a, b, c]⟩ : Shape).Idx → EReal) (init : (⟨0, ![]⟩ : Shape).Idx → EReal)
    (h' : (⟨3, ![a, b, c]⟩ : Shape).ReducesTo [2] ⟨2, ![a, b]⟩) (hu : 0 < (⟨0, ![]⟩ : Shape).numel)
    (p : Fin a) (q : Fin b) :
    Host.reduce (FloatOps.maximumf (F := Ideal) (φ := .f32)) x init h' hu (ix2 p q)
      = (Finset.univ : Finset (Fin c)).fold max (init ix0) (fun k => x (ix3 p q k)) := by
  have h : (⟨3, ![a, b, c]⟩ : Shape).Reduces [2] ⟨2, ![a, b]⟩ := ⟨h'.1, Nat.zero_lt_two, h'.2⟩
  refine (Host.reduce_eq_fold_single _ x init h' h hu (ix2 p q)).trans ?_
  rw [eq_ix0 (Shape.Idx.first hu)]
  exact Finset.fold_congr fun k _ => congrArg x (lift_last3 h p q k)

/-- The maximum along the middle axis, read at (p, r): the fold of max over the entries x (p, k, r) from the start value. -/
theorem hostMax_mid3 (x : (⟨3, ![a, b, c]⟩ : Shape).Idx → EReal) (init : (⟨0, ![]⟩ : Shape).Idx → EReal)
    (h' : (⟨3, ![a, b, c]⟩ : Shape).ReducesTo [1] ⟨2, ![a, c]⟩) (hu : 0 < (⟨0, ![]⟩ : Shape).numel)
    (p : Fin a) (r : Fin c) :
    Host.reduce (FloatOps.maximumf (F := Ideal) (φ := .f32)) x init h' hu (ix2 p r)
      = (Finset.univ : Finset (Fin b)).fold max (init ix0) (fun k => x (ix3 p k r)) := by
  have h : (⟨3, ![a, b, c]⟩ : Shape).Reduces [1] ⟨2, ![a, c]⟩ := ⟨h'.1, Nat.zero_lt_two, h'.2⟩
  refine (Host.reduce_eq_fold_single _ x init h' h hu (ix2 p r)).trans ?_
  rw [eq_ix0 (Shape.Idx.first hu)]
  exact Finset.fold_congr fun k _ => congrArg x (lift_mid3 h p r k)

end Cert.LibHostMax

end
-- ==== Proof.RefPooled.lean ====
/-
  The reference program's result, read at an index, is the softmax-pooled feature of the specification.

  Row b, position j: the reference forms the two projections Σ_e x b j e · W u e and Σ_e x b j e · U u e, adds them,
  takes tanh, contracts with v over the units, and puts −∞ where the mask word is zero: the score s b j.  Along the
  positions of a row it takes the maximum M b of the scores, the weights exp (s b j − M b), their sum, the quotient,
  and last the sum over j of the quotient times x b j e.  Each stage below is read at an index built from coordinates;
  the composition is the specification's pooled.
-/
import proofs.«120756_j43568148251343_2_alg».proof.Proof.Gen.ReferenceIdeal.Read
import proofs.«120756_j43568148251343_2_alg».proof.Proof.Spec
import proofs.«120756_j43568148251343_2_alg».proof.Proof.LibHostMax
import Idealize.ShloMosaic.Lib.ValueIdx
import Idealize.ShloMosaic.PureOps.Ideal.Laws

noncomputable section

namespace Cert.RefPooled

open Cert.ReferenceIdeal Idealize.ShloMosaic Idealize.ShloMosaic.ValueIdx
open scoped BigOperators

/-! ## The words: −∞ and the mask test -/

/-- The word 0xFF800000 is −∞. -/
theorem negInf_eq : Ideal.ofBits .f32 0xFF800000#32 = (⊥ : EReal) := by simp [Ideal.ofBits, Ideal.ieee]

/-- A select on "the word is zero" is the if on that equation. -/
theorem select_eq_zero {α : Type} (w : BitVec 32) (A B : α) :
    Scalar.select (IntOp.cmpi .eq w 0#32) A B = if w = 0#32 then A else B := by
  by_cases h : w = 0#32
  · subst h; rfl
  · rw [if_neg h]
    have hb : (w == 0#32) = false := beq_eq_false_iff_ne.mpr h
    have : IntOp.cmpi .eq w 0#32 = 0#1 := by
      show BitVec.ofBool (w == 0#32) = 0#1
      rw [hb]; rfl
    rw [this, select_zero]

/-! ## Index equations: the generated index functions at coordinates -/

theorem lidx_v0 (b : Fin 32) (j : Fin 2048) (u k : Fin 1024) : Read.lidx_main_v0 (ix3 b j u) k = ix3 b j k :=
  funext fun a => Fin.ext (by match a with | ⟨0, _⟩ => rfl | ⟨1, _⟩ => rfl | ⟨2, _⟩ => rfl)
theorem ridx_v0 (b : Fin 32) (j : Fin 2048) (u k : Fin 1024) : Read.ridx_main_v0 (ix3 b j u) k = ix2 u k :=
  funext fun a => Fin.ext (by match a with | ⟨0, _⟩ => rfl | ⟨1, _⟩ => rfl)
theorem lidx_v1 (b : Fin 32) (j : Fin 2048) (u k : Fin 1024) : Read.lidx_main_v1 (ix3 b j u) k = ix3 b j k :=
  funext fun a => Fin.ext (by match a with | ⟨0, _⟩ => rfl | ⟨1, _⟩ => rfl | ⟨2, _⟩ => rfl)
theorem ridx_v1 (b : Fin 32) (j : Fin 2048) (u k : Fin 1024) : Read.ridx_main_v1 (ix3 b j u) k = ix2 u k :=
  funext fun a => Fin.ext (by match a with | ⟨0, _⟩ => rfl | ⟨1, _⟩ => rfl)
theorem lidx_v4 (b : Fin 32) (j : Fin 2048) (k : Fin 1024) : Read.lidx_main_v4 (ix3 b j (0 : Fin 1)) k = ix3 b j k :=
  funext fun a => Fin.ext (by match a with | ⟨0, _⟩ => rfl | ⟨1, _⟩ => rfl | ⟨2, _⟩ => rfl)
theorem ridx_v4 (b : Fin 32) (j : Fin 2048) (k : Fin 1024) : Read.ridx_main_v4 (ix3 b j (0 : Fin 1)) k = ix2 (0 : Fin 1) k :=
  funext fun a => Fin.ext (by match a with | ⟨0, _⟩ => rfl | ⟨1, _⟩ => rfl)
theorem idx_v5 (b : Fin 32) (j : Fin 2048) : Read.idx_main_v5 (ix3 b j (0 : Fin 1)) = ix2 b j :=
  funext fun a => Fin.ext (by match a with | ⟨0, _⟩ => rfl | ⟨1, _⟩ => rfl)

/-! ## The score -/

/-- The specification's score of the reference's arguments. -/
abbrev sc (x0 : (⟨S32x2048x1024, .f32⟩ : BufTy).Contents (Elt Ideal)) (x1 : (⟨S32x2048, .i32⟩ : BufTy).Contents (Elt Ideal))
    (x2 x3 : (⟨S1024x1024, .f32⟩ : BufTy).Contents (Elt Ideal)) (x4 : (⟨S1x1024, .f32⟩ : BufTy).Contents (Elt Ideal)) :
    Fin 32 → Fin 2048 → EReal :=
  Cert.Pool.score (fun b j => x1 (ix2 b j))
    (Cert.Pool.projSplit (fun b j e => x0 (ix3 b j e)) (fun u e => x2 (ix2 u e)) (fun u e => x3 (ix2 u e)))
    (fun u => x4 (ix2 0 u))

section Stages

variable (x0 : (⟨S32x2048x1024, .f32⟩ : BufTy).Contents (Elt Ideal)) (x1 : (⟨S32x2048, .i32⟩ : BufTy).Contents (Elt Ideal))
  (x2 x3 : (⟨S1024x1024, .f32⟩ : BufTy).Contents (Elt Ideal)) (x4 : (⟨S1x1024, .f32⟩ : BufTy).Contents (Elt Ideal))

/-- The projection stage at (b, j, u): the two products added. -/
theorem proj_apply (b : Fin 32) (j : Fin 2048) (u : Fin 1024) :
    Read.val_main_v2 (F := Ideal) x0 x2 x3 (ix3 b j u)
      = Cert.Pool.projSplit (fun b j e => x0 (ix3 b j e)) (fun u e => x2 (ix2 u e)) (fun u e => x3 (ix2 u e)) b j u := by
  rw [Read.val_main_v2_apply, Read.val_main_v0_apply, Read.val_main_v1_apply]
  simp only [lidx_v0, ridx_v0, lidx_v1, ridx_v1, Ideal.addf_def]
  rfl

/-- The masked score stage at (b, j, 0): −∞ where the mask word is zero, else Σ_u tanh (projection) · v u. -/
theorem score_apply (b : Fin 32) (j : Fin 2048) :
    Read.val_main_v8 (F := Ideal) x0 x1 x2 x3 x4 (ix3 b j (0 : Fin 1)) = sc x0 x1 x2 x3 x4 b j := by
  rw [Read.val_main_v8_apply, Read.val_main_v7_apply, Read.val_main_v5_apply, Read.val_main_v6_apply, Read.val_main_c_apply,
    Read.val_main_call0_v0_apply, Read.val_main_cst_apply, Read.val_main_v4_apply, idx_v5, select_eq_zero, Ideal.ofBits_def, negInf_eq]
  simp only [lidx_v4, ridx_v4, Read.val_main_v3_apply, proj_apply, Ideal.hostUnary_tanh_def]
  rfl

/-! ## The row maximum -/

theorem idx_v13 (b : Fin 32) (j : Fin 2048) : Read.idx_main_v13 (ix3 b j (0 : Fin 1)) = ix3 b (0 : Fin 1) (0 : Fin 1) :=
  funext fun a => Fin.ext (by match a with | ⟨0, _⟩ => rfl | ⟨1, _⟩ => rfl | ⟨2, _⟩ => rfl)
theorem idx_v12 (b : Fin 32) : Read.idx_main_v12 (ix3 b (0 : Fin 1) (0 : Fin 1)) = ix2 b (0 : Fin 1) :=
  funext fun a => Fin.ext (by match a with | ⟨0, _⟩ => rfl | ⟨1, _⟩ => rfl)

/-- The fold of max from −∞ over a row is the row's supremum. -/
theorem fold_max_bot (f : Fin 2048 → EReal) :
    (Finset.univ : Finset (Fin 2048)).fold max ⊥ f = Finset.univ.sup f := rfl

/-- The maximum over the positions of row b, read at (b, 0): the supremum of the row's scores. -/
theorem max_apply (b : Fin 32) :
    Read.val_main_v9 (F := Ideal) x0 x1 x2 x3 x4 (ix2 b (0 : Fin 1)) = Finset.univ.sup (sc x0 x1 x2 x3 x4 b) := by
  unfold Read.val_main_v9
  rw [Cert.LibHostMax.hostMax_mid3, Read.val_main_cst_0_apply, Ideal.ofBits_def, negInf_eq]
  simp only [score_apply]
  exact fold_max_bot _

/-- The broadcast maximum at (b, j, 0), after the maximum with −∞: still the supremum of row b's scores. -/
theorem bmax_apply (b : Fin 32) (j : Fin 2048) :
    Read.val_main_v13 (F := Ideal) x0 x1 x2 x3 x4 (ix3 b j (0 : Fin 1)) = Finset.univ.sup (sc x0 x1 x2 x3 x4 b) := by
  rw [Read.val_main_v13_apply, idx_v13, Read.val_main_v12_apply, idx_v12, Read.val_main_v11_apply, Read.val_main_v10_apply,
    Read.val_main_cst_1_apply, Ideal.ofBits_def, negInf_eq, max_apply, Ideal.maximumf_def]
  exact max_eq_right bot_le

/-! ## The weights, their sum, the quotient -/

theorem idx_v16 (b : Fin 32) (k : Fin 2048) : Read.idx_main_v16 (ix2 b (0 : Fin 1)) k = ix3 b k (0 : Fin 1) :=
  funext fun a => Fin.ext (by match a with | ⟨0, _⟩ => rfl | ⟨1, _⟩ => rfl | ⟨2, _⟩ => rfl)
theorem idx_v18 (b : Fin 32) (j : Fin 2048) : Read.idx_main_v18 (ix3 b j (0 : Fin 1)) = ix3 b (0 : Fin 1) (0 : Fin 1) :=
  funext fun a => Fin.ext (by match a with | ⟨0, _⟩ => rfl | ⟨1, _⟩ => rfl | ⟨2, _⟩ => rfl)
theorem idx_v17 (b : Fin 32) : Read.idx_main_v17 (ix3 b (0 : Fin 1) (0 : Fin 1)) = ix2 b (0 : Fin 1) :=
  funext fun a => Fin.ext (by match a with | ⟨0, _⟩ => rfl | ⟨1, _⟩ => rfl)
theorem idx_v20 (b : Fin 32) (j : Fin 2048) (e : Fin 1024) : Read.idx_main_v20 (ix3 b j e) = ix3 b j (0 : Fin 1) :=
  funext fun a => Fin.ext (by match a with | ⟨0, _⟩ => rfl | ⟨1, _⟩ => rfl | ⟨2, _⟩ => rfl)
theorem idx_v22 (b : Fin 32) (e : Fin 1024) (k : Fin 2048) : Read.idx_main_v22 (ix2 b e) k = ix3 b k e :=
  funext fun a => Fin.ext (by match a with | ⟨0, _⟩ => rfl | ⟨1, _⟩ => rfl | ⟨2, _⟩ => rfl)

/-- The weight of position j of row b: exp (s b j − M b). -/
theorem weight_apply (b : Fin 32) (j : Fin 2048) :
    Read.val_main_v15 (F := Ideal) x0 x1 x2 x3 x4 (ix3 b j (0 : Fin 1))
      = Ideal.exp (sc x0 x1 x2 x3 x4 b j - Finset.univ.sup (sc x0 x1 x2 x3 x4 b)) := by
  rw [Read.val_main_v15_apply, Read.val_main_v14_apply, score_apply, bmax_apply, Ideal.hostUnary_exp_def, Ideal.subf_def]

/-- The sum of row b's weights, read at (b, 0). -/
theorem denom_apply (b : Fin 32) :
    Read.val_main_v16 (F := Ideal) x0 x1 x2 x3 x4 (ix2 b (0 : Fin 1))
      = ∑ j' : Fin 2048, Ideal.exp (sc x0 x1 x2 x3 x4 b j' - Finset.univ.sup (sc x0 x1 x2 x3 x4 b)) := by
  rw [Read.val_main_v16_apply, Read.val_main_cst_2_apply, Ideal.ofBits_def, Ideal.ofBits_zero_f32, zero_add]
  simp only [idx_v16, weight_apply]

/-- The quotient at (b, j, 0): the weight over the sum of the row's weights. -/
theorem quot_apply (b : Fin 32) (j : Fin 2048) :
    Read.val_main_v19 (F := Ideal) x0 x1 x2 x3 x4 (ix3 b j (0 : Fin 1))
      = Ideal.div (Ideal.exp (sc x0 x1 x2 x3 x4 b j - Finset.univ.sup (sc x0 x1 x2 x3 x4 b)))
          (∑ j' : Fin 2048, Ideal.exp (sc x0 x1 x2 x3 x4 b j' - Finset.univ.sup (sc x0 x1 x2 x3 x4 b))) := by
  rw [Read.val_main_v19_apply, weight_apply, Read.val_main_v18_apply, idx_v18, Read.val_main_v17_apply, idx_v17, denom_apply,
    Ideal.hostDivf_def]

end Stages

/-! ## The pooled feature -/

/-- THE REFERENCE AT (b, e): the softmax of row b's scores against the features, Σ_j quotient b j · x b j e. -/
theorem ref_apply (x0 : (⟨S32x2048x1024, .f32⟩ : BufTy).Contents (Elt Ideal)) (x1 : (⟨S32x2048, .i32⟩ : BufTy).Contents (Elt Ideal))
    (x2 x3 : (⟨S1024x1024, .f32⟩ : BufTy).Contents (Elt Ideal)) (x4 : (⟨S1x1024, .f32⟩ : BufTy).Contents (Elt Ideal)) (b : Fin 32) (e : Fin 1024) :
    Cert.ReferenceIdeal.Read.val_main_v22 (F := Ideal) x0 x1 x2 x3 x4 (ix2 b e)
      = Cert.Pool.pooled
          (Cert.Pool.score (fun b j => x1 (ix2 b j))
            (Cert.Pool.projSplit (fun b j e => x0 (ix3 b j e)) (fun u e => x2 (ix2 u e)) (fun u e => x3 (ix2 u e)))
            (fun u => x4 (ix2 0 u)))
          (fun b j e => x0 (ix3 b j e)) b e := by
  rw [Read.val_main_v22_apply, Read.val_main_cst_3_apply, Ideal.ofBits_def, Ideal.ofBits_zero_f32, zero_add]
  simp only [idx_v22, Read.val_main_v21_apply, Read.val_main_v20_apply, idx_v20, quot_apply, Ideal.mulf_def]
  rfl

end Cert.RefPooled

end
-- ==== Proof.LibOnlineSoftmax.lean ====
/-
  The online softmax: a running maximum, a running denominator and a running numerator, updated tile by tile,
  compute the same quotient as the two-pass softmax.

  Scores and values come in tiles of width B: tile t holds s t u and v t u for the positions u < B. Write
  m_t for the maximum of the scores of tile t, and  M n = max (m_0, …, m_(n-1))  for the maximum of the first n tiles
  (the empty maximum is −∞). The recurrence starts from (m, l, a) = (−∞, 0, 0) and, reading tile n, replaces it by

      m' = max (m, m_n),    l' = exp (m − m') · l + Σ_u exp (s n u − m'),    a' = exp (m − m') · a + Σ_u exp (s n u − m') · v n u.

  When the scores and values of the first n tiles are real numbers, after n tiles

      m = M n,     l = Σ_(t < n) Σ_u exp (s t u − M n),     a = Σ_(t < n) Σ_u exp (s t u − M n) · v t u,

  because exp (m − m') · exp (x − m) = exp (x − m') for real numbers, and because at the first tile the old maximum is −∞,
  exp (−∞ − m') = 0, and the old sums are 0. For n ≥ 1 the maximum M n is a real number, l is a positive real number and a is
  a real number, so the quotient a / l is the sum of the quotients exp (s t u − M n) / l times v t u: the softmax weights
  against the values. Read along one flat index j = u + B · t < T · B this is the two-pass softmax of the whole row.

  All arithmetic is that of the extended reals with exp (−∞) = 0; nothing is distributed or cancelled before the terms
  have been shown to be real numbers.
-/
import Idealize.ShloMosaic.PureOps.Ideal
import Mathlib.Logic.Equiv.Fin.Basic
import Mathlib.Algebra.BigOperators.Fin

noncomputable section

namespace Cert.LibOnlineSoftmax

open Idealize.ShloMosaic
open scoped BigOperators

/-! # The online softmax equals the two-pass softmax

For tiles of scores s t u and values v t u (tile t, position u < B), the recurrence
(m, l, a) ↦ (m', exp (m − m') · l + Σ_u exp (s n u − m'), exp (m − m') · a + Σ_u exp (s n u − m') · v n u) with
m' = max (m, max_u s n u), started at (−∞, 0, 0), reaches after n tiles of real numbers the maximum M n of all scores read,
the sum of exp (s t u − M n) and the sum of exp (s t u − M n) · v t u; for n ≥ 1 their quotient is the sum of the softmax
weights times the values, and along the flat index j = u + B · t it is the two-pass softmax of the whole row. -/

/-! ### Real numbers inside the extended reals -/

/-- The coercion of a finite sum of real numbers is the sum of the coercions. -/
theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponential of a difference of two real numbers is the real exponential of the real difference. -/
theorem exp_coe_sub (x c : ℝ) :
    Ideal.exp ((x : EReal) - (c : EReal)) = ((Real.exp (x - c) : ℝ) : EReal) := by
  rw [← EReal.coe_sub]; rfl

/-- A finite nonempty supremum of real numbers is a real number. -/
theorem sup_isReal {ι : Type*} (S : Finset ι) (hS : S.Nonempty) (f : ι → EReal)
    (hf : ∀ i ∈ S, ∃ r : ℝ, f i = (r : EReal)) : ∃ r : ℝ, S.sup f = (r : EReal) := by
  obtain ⟨i, hi, h⟩ := Finset.exists_mem_eq_sup S hS f
  obtain ⟨r, hr⟩ := hf i hi
  exact ⟨r, h.trans hr⟩

/-! ### The recurrence -/

variable {B : ℕ}

/-- The running state of the online softmax: the maximum m seen so far, the denominator l and the numerator a,
    both scaled to that maximum. -/
@[ext] structure Acc where
  /-- the running maximum -/
  m : EReal
  /-- the running denominator, the sum of exp (score − m) -/
  l : EReal
  /-- the running numerator, the sum of exp (score − m) · value -/
  a : EReal

/-- The state after n tiles: start from (−∞, 0, 0); tile n raises the maximum to m' = max (m, maximum of tile n),
    scales both sums by α = exp (m − m') and adds the tile's terms exp (s n u − m') and exp (s n u − m') · v n u. -/
def state (s v : ℕ → Fin B → EReal) : ℕ → Acc
  | 0 => ⟨⊥, 0, 0⟩
  | n + 1 =>
    ⟨max (state s v n).m (Finset.univ.sup (s n)),
     Ideal.exp ((state s v n).m - max (state s v n).m (Finset.univ.sup (s n))) * (state s v n).l
       + ∑ u, Ideal.exp (s n u - max (state s v n).m (Finset.univ.sup (s n))),
     Ideal.exp ((state s v n).m - max (state s v n).m (Finset.univ.sup (s n))) * (state s v n).a
       + ∑ u, Ideal.exp (s n u - max (state s v n).m (Finset.univ.sup (s n))) * v n u⟩

/-- Before any tile the state is (−∞, 0, 0). -/
@[simp] theorem state_zero (s v : ℕ → Fin B → EReal) : state s v 0 = ⟨⊥, 0, 0⟩ := rfl

/-- One step of the recurrence, spelt with its two intermediate quantities m' and α. -/
theorem state_succ (s v : ℕ → Fin B → EReal) (n : ℕ) :
    state s v (n + 1) =
      (let m := (state s v n).m
       let l := (state s v n).l
       let a := (state s v n).a
       let m' := max m (Finset.univ.sup (s n))
       let α := Ideal.exp (m - m')
       ⟨m', α * l + ∑ u, Ideal.exp (s n u - m'), α * a + ∑ u, Ideal.exp (s n u - m') * v n u⟩) := rfl

/-- The new maximum: the larger of the old one and the maximum of the tile. -/
theorem state_succ_m (s v : ℕ → Fin B → EReal) (n : ℕ) :
    (state s v (n + 1)).m = max (state s v n).m (Finset.univ.sup (s n)) := rfl

/-- The new denominator: the old one scaled by exp (m − m'), plus the tile's terms exp (s n u − m'). -/
theorem state_succ_l (s v : ℕ → Fin B → EReal) (n : ℕ) :
    (state s v (n + 1)).l =
      Ideal.exp ((state s v n).m - (state s v (n + 1)).m) * (state s v n).l
        + ∑ u, Ideal.exp (s n u - (state s v (n + 1)).m) := rfl

/-- The new numerator: the old one scaled by exp (m − m'), plus the tile's terms exp (s n u − m') · v n u. -/
theorem state_succ_a (s v : ℕ → Fin B → EReal) (n : ℕ) :
    (state s v (n + 1)).a =
      Ideal.exp ((state s v n).m - (state s v (n + 1)).m) * (state s v n).a
        + ∑ u, Ideal.exp (s n u - (state s v (n + 1)).m) * v n u := rfl

/-! ### The maximum of the first n tiles -/

/-- M n: the maximum of the scores of the tiles before n (−∞ for no tile). -/
def M (s : ℕ → Fin B → EReal) (n : ℕ) : EReal := (Finset.range n).sup fun t => Finset.univ.sup (s t)

/-- M n written out. -/
theorem M_def (s : ℕ → Fin B → EReal) (n : ℕ) :
    M s n = (Finset.range n).sup fun t => Finset.univ.sup (s t) := rfl

/-- The maximum of no tile is −∞. -/
@[simp] theorem M_zero (s : ℕ → Fin B → EReal) : M s 0 = ⊥ := by
  rw [M, Finset.range_zero, Finset.sup_empty]

/-- One more tile: the maximum of the earlier tiles and of the new one. -/
theorem M_succ (s : ℕ → Fin B → EReal) (n : ℕ) :
    M s (n + 1) = max (M s n) (Finset.univ.sup (s n)) := by
  rw [M, Finset.range_add_one, Finset.sup_insert, max_comm]; rfl

/-- With at least one tile, a positive tile width and real scores, the maximum M n is a real number. -/
theorem M_isReal {s : ℕ → Fin B → EReal} {n : ℕ} (hB : 0 < B) (hn : 1 ≤ n)
    (hs : ∀ t < n, ∀ u, ∃ r : ℝ, s t u = (r : EReal)) : ∃ r : ℝ, M s n = (r : EReal) :=
  sup_isReal _ (Finset.nonempty_range_iff.mpr (by omega)) _ fun t ht =>
    sup_isReal _ ⟨⟨0, hB⟩, Finset.mem_univ _⟩ _ fun u _ => hs t (Finset.mem_range.mp ht) u

/-! ### The two sums as real numbers -/

/-- The sum of exp (s t u − c) over the first n tiles, for real scores and a real c, is the coercion of the real sum. -/
theorem den_coe {s : ℕ → Fin B → EReal} {n : ℕ} (hs : ∀ t < n, ∀ u, ∃ r : ℝ, s t u = (r : EReal)) (c : ℝ) :
    ∑ t ∈ Finset.range n, ∑ u, Ideal.exp (s t u - (c : EReal))
      = ((∑ t ∈ Finset.range n, ∑ u, Real.exp ((s t u).toReal - c) : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  rw [hr, exp_coe_sub, EReal.toReal_coe]

/-- The sum of exp (s t u − c) · v t u over the first n tiles, for real scores and values and a real c, is the coercion of
    the real sum. -/
theorem num_coe {s v : ℕ → Fin B → EReal} {n : ℕ} (hs : ∀ t < n, ∀ u, ∃ r : ℝ, s t u = (r : EReal))
    (hv : ∀ t < n, ∀ u, ∃ r : ℝ, v t u = (r : EReal)) (c : ℝ) :
    ∑ t ∈ Finset.range n, ∑ u, Ideal.exp (s t u - (c : EReal)) * v t u
      = ((∑ t ∈ Finset.range n, ∑ u, Real.exp ((s t u).toReal - c) * (v t u).toReal : ℝ) : EReal) := by
  rw [coe_finset_sum]
  refine Finset.sum_congr rfl fun t ht => ?_
  rw [coe_finset_sum]
  refine Finset.sum_congr rfl fun u _ => ?_
  obtain ⟨r, hr⟩ := hs t (Finset.mem_range.mp ht) u
  obtain ⟨q, hq⟩ := hv t (Finset.mem_range.mp ht) u
  rw [hr, hq, exp_coe_sub, EReal.toReal_coe, EReal.toReal_coe, EReal.coe_mul]

/-- Moving the reference point of the denominator from c to d multiplies it by exp (c − d). -/
theorem rescale_den {s : ℕ → Fin B → EReal} {n : ℕ} (hs : ∀ t < n, ∀ u, ∃ r : ℝ, s t u = (r : EReal)) (c d : ℝ) :
    Ideal.exp ((c : EReal) - (d : EReal)) * ∑ t ∈ Finset.range n, ∑ u, Ideal.exp (s t u - (c : EReal))
      = ∑ t ∈ Finset.range n, ∑ u, Ideal.exp (s t u - (d : EReal)) := by
  rw [den_coe hs c, den_coe hs d, exp_coe_sub, ← EReal.coe_mul, EReal.coe_eq_coe_iff, Finset.mul_sum]
  refine Finset.sum_congr rfl fun t _ => ?_
  rw [Finset.mul_sum]
  refine Finset.sum_congr rfl fun u _ => ?_
  rw [← Real.exp_add]
  congr 1; ring

/-- Moving the reference point of the numerator from c to d multiplies it by exp (c − d). -/
theorem rescale_num {s v : ℕ → Fin B → EReal} {n : ℕ} (hs : ∀ t < n, ∀ u, ∃ r : ℝ, s t u = (r : EReal))
    (hv : ∀ t < n, ∀ u, ∃ r : ℝ, v t u = (r : EReal)) (c d : ℝ) :
    Ideal.exp ((c : EReal) - (d : EReal)) * ∑ t ∈ Finset.range n, ∑ u, Ideal.exp (s t u - (c : EReal)) * v t u
      = ∑ t ∈ Finset.range n, ∑ u, Ideal.exp (s t u - (d : EReal)) * v t u := by
  rw [num_coe hs hv c, num_coe hs hv d, exp_coe_sub, ← EReal.coe_mul, EReal.coe_eq_coe_iff, Finset.mul_sum]
  refine Finset.sum_congr rfl fun t _ => ?_
  rw [Finset.mul_sum]
  refine Finset.sum_congr rfl fun u _ => ?_
  rw [← mul_assoc, ← Real.exp_add]
  congr 2; ring

/-! ### The state after n tiles -/

/-- After n tiles whose scores and values are real numbers, the running maximum is M n and the two running sums are the
    sums over all n tiles taken against M n. (True for n = 0 as well: −∞, 0, 0.) -/
theorem state_eq {s v : ℕ → Fin B → EReal} (hB : 0 < B) :
    ∀ n : ℕ, (∀ t < n, ∀ u, ∃ r : ℝ, s t u = (r : EReal)) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, ∃ r : ℝ, s t u = (r : EReal) := fun t ht => hs t (by omega)
    have hv' : ∀ t < n, ∀ u, ∃ r : ℝ, v t u = (r : EReal) := fun t ht => hv t (by omega)
    obtain ⟨m', hm'⟩ := M_isReal hB (n := n + 1) (by omega) hs
    have hmax : max (M s n) (Finset.univ.sup (s n)) = (m' : EReal) := by rw [← M_succ, hm']
    have hd : Ideal.exp (M s n - (m' : EReal)) * ∑ t ∈ Finset.range n, ∑ u, Ideal.exp (s t u - M s n)
        = ∑ t ∈ Finset.range n, ∑ u, Ideal.exp (s t u - (m' : EReal)) := by
      rcases Nat.eq_zero_or_pos n with rfl | hn
      · simp
      · obtain ⟨m, hm⟩ := M_isReal hB hn hs'
        rw [hm]; exact rescale_den hs' m m'
    have ha : Ideal.exp (M s n - (m' : EReal)) * ∑ t ∈ Finset.range n, ∑ u, Ideal.exp (s t u - M s n) * v t u
        = ∑ t ∈ Finset.range n, ∑ u, Ideal.exp (s t u - (m' : EReal)) * v t u := by
      rcases Nat.eq_zero_or_pos n with rfl | hn
      · simp
      · obtain ⟨m, hm⟩ := M_isReal hB hn hs'
        rw [hm]; exact rescale_num hs' hv' m m'
    rw [state_succ, ih hs' hv']
    dsimp only
    rw [hmax, hm', Finset.sum_range_succ, Finset.sum_range_succ, hd, ha]

/-- The running maximum after n ≥ 1 tiles is the maximum M n of all their scores, a real number. -/
theorem max_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).m = M s n ∧ ∃ r : ℝ, M s n = (r : EReal) :=
  ⟨by rw [state_eq hB n hs hv], M_isReal hB hn hs⟩

/-- The running denominator after n ≥ 1 tiles is the sum of exp (s t u − M n) over all their positions, a positive
    real number. -/
theorem den_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).l = ∑ t ∈ Finset.range n, ∑ u, Ideal.exp (s t u - M s n)
      ∧ ∃ r : ℝ, 0 < r ∧ (state s v n).l = (r : EReal) := by
  have h : (state s v n).l = ∑ t ∈ Finset.range n, ∑ u, Ideal.exp (s t u - M s n) := by rw [state_eq hB n hs hv]
  refine ⟨h, ?_⟩
  obtain ⟨m, hm⟩ := M_isReal hB hn hs
  refine ⟨_, ?_, by rw [h, hm]; exact den_coe hs m⟩
  exact Finset.sum_pos (fun t _ => Finset.sum_pos (fun u _ => Real.exp_pos _) ⟨⟨0, hB⟩, Finset.mem_univ _⟩)
    (Finset.nonempty_range_iff.mpr (by omega))

/-- The running numerator after n ≥ 1 tiles is the sum of exp (s t u − M n) · v t u over all their positions, a real
    number. -/
theorem num_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    (state s v n).a = ∑ t ∈ Finset.range n, ∑ u, Ideal.exp (s t u - M s n) * v t u
      ∧ ∃ r : ℝ, (state s v n).a = (r : EReal) := by
  have h : (state s v n).a = ∑ t ∈ Finset.range n, ∑ u, Ideal.exp (s t u - M s n) * v t u := by
    rw [state_eq hB n hs hv]
  obtain ⟨m, hm⟩ := M_isReal hB hn hs
  exact ⟨h, _, by rw [h, hm]; exact num_coe hs hv m⟩

/-! ### The quotient of the sums is the sum of the quotients -/

/-- Dividing a finite sum of products of real numbers by a nonzero real number divides the first factor of each term. -/
theorem div_sum {ι : Type*} (S : Finset ι) (a b : ι → EReal) (ha : ∀ i ∈ S, ∃ r : ℝ, a i = (r : EReal))
    (hb : ∀ i ∈ S, ∃ r : ℝ, b i = (r : EReal)) {L : ℝ} (hL : L ≠ 0) :
    Ideal.div (∑ i ∈ S, a i * b i) (L : EReal) = ∑ i ∈ S, Ideal.div (a i) (L : EReal) * b i := by
  simp only [Ideal.div_coe hL]
  have e1 : ∑ i ∈ S, a i * b i = ((∑ i ∈ S, (a i).toReal * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul]
  have e2 : ∑ i ∈ S, a i * ((1 / L : ℝ) : EReal) * b i
      = ((∑ i ∈ S, (a i).toReal * (1 / L) * (b i).toReal : ℝ) : EReal) := by
    rw [coe_finset_sum]
    refine Finset.sum_congr rfl fun i hi => ?_
    obtain ⟨r, hr⟩ := ha i hi
    obtain ⟨q, hq⟩ := hb i hi
    rw [hr, hq, EReal.toReal_coe, EReal.toReal_coe, EReal.coe_mul, EReal.coe_mul]
  rw [e1, e2, ← EReal.coe_mul, EReal.coe_eq_coe_iff, Finset.sum_mul]
  exact Finset.sum_congr rfl fun i _ => by ring

/-- The same over a whole finite index type: (Σ_j a j · b j) / L = Σ_j (a j / L) · b j for real a, b and a real L ≠ 0. -/
theorem div_sum_univ {ι : Type*} [Fintype ι] (a b : ι → EReal) (ha : ∀ j, ∃ r : ℝ, a j = (r : EReal))
    (hb : ∀ j, ∃ r : ℝ, b j = (r : EReal)) {L : ℝ} (hL : L ≠ 0) :
    Ideal.div (∑ j, a j * b j) (L : EReal) = ∑ j, Ideal.div (a j) (L : EReal) * b j :=
  div_sum Finset.univ a b (fun j _ => ha j) (fun j _ => hb j) hL

/-- After n ≥ 1 tiles the quotient numerator / denominator is the sum, over all positions of the n tiles, of the softmax
    weight exp (s t u − M n) / Σ exp (s t' u' − M n) times the value v t u. -/
theorem quot_eq {s v : ℕ → Fin B → EReal} {n : ℕ} (hB : 0 < B) (hn : 1 ≤ n)
    (hs : ∀ t < n, ∀ u, ∃ r : ℝ, s t u = (r : EReal)) (hv : ∀ t < n, ∀ u, ∃ r : ℝ, v t u = (r : EReal)) :
    Ideal.div (state s v n).a (state s v n).l
      = ∑ t ∈ Finset.range n, ∑ u,
          Ideal.div (Ideal.exp (s t u - M s n)) (∑ t' ∈ Finset.range n, ∑ u', Ideal.exp (s t' u' - M s n)) * v t u := by
  obtain ⟨hl, L, hLpos, hL⟩ := den_eq hB hn hs hv
  obtain ⟨m, hm⟩ := M_isReal hB hn hs
  rw [(num_eq hB hn hs hv).1, ← hl, hL, hm, ← Finset.sum_product', ← Finset.sum_product']
  refine div_sum _ (fun p : ℕ × Fin B => Ideal.exp (s p.1 p.2 - (m : EReal))) (fun p : ℕ × Fin B => v p.1 p.2)
    (fun p hp => ?_) (fun p hp => ?_)
    hLpos.ne'
  · obtain ⟨r, hr⟩ := hs p.1 (Finset.mem_range.mp (Finset.mem_product.mp hp).1) p.2
    exact ⟨_, by rw [hr, exp_coe_sub]⟩
  · exact hv p.1 (Finset.mem_range.mp (Finset.mem_product.mp hp).1) p.2

/-! ### One flat index

A row of T · B entries is cut into T tiles of width B: position u of tile t is the entry j = u + B · t. -/

/-- The flat position of entry u of tile t is u + B · t. -/
theorem flat_val {T : ℕ} (t : Fin T) (u : Fin B) : (finProdFinEquiv (t, u) : Fin (T * B)).val = u.val + B * t.val := rfl

/-- The flat position of entry u of tile t, written as a bounded number. -/
theorem flat_mk {T : ℕ} (t : ℕ) (ht : t < T) (u : Fin B) (h : u.val + B * t < T * B) :
    (finProdFinEquiv ((⟨t, ht⟩ : Fin T), u) : Fin (T * B)) = ⟨u.val + B * t, h⟩ := rfl

/-- The tiles of a flat row f: position u of tile t < T is the entry u + B · t; tiles from T on are filled with z. -/
def tiles {T : ℕ} (f : Fin (T * B) → EReal) (z : EReal) (t : ℕ) (u : Fin B) : EReal :=
  if h : t < T then f (finProdFinEquiv (⟨t, h⟩, u)) else z

/-- A tile before T reads the flat row. -/
theorem tiles_of_lt {T : ℕ} (f : Fin (T * B) → EReal) (z : EReal) (t : ℕ) (ht : t < T) (u : Fin B) :
    tiles f z t u = f (finProdFinEquiv (⟨t, ht⟩, u)) := dif_pos ht

/-- Summing over the T tiles and the B positions of each is summing over the flat index. -/
theorem sum_tiles {T : ℕ} (G : ℕ → Fin B → EReal) (H : Fin (T * B) → EReal)
    (h : ∀ (t : ℕ) (ht : t < T) (u : Fin B), G t u = H (finProdFinEquiv (⟨t, ht⟩, u))) :
    ∑ t ∈ Finset.range T, ∑ u, G t u = ∑ j, H j := by
  rw [Finset.sum_range, ← Fintype.sum_prod_type', ← Equiv.sum_comp finProdFinEquiv H]
  exact Fintype.sum_congr _ _ fun p => h p.1 p.1.2 p.2

/-- The maximum over the T tiles is the maximum over the flat index. -/
theorem M_flat {T : ℕ} {s : ℕ → Fin B → EReal} {f : Fin (T * B) → EReal}
    (hs : ∀ (t : ℕ) (ht : t < T) (u : Fin B), s t u = f (finProdFinEquiv (⟨t, ht⟩, u))) :
    M s T = Finset.univ.sup f := by
  apply le_antisymm
  · refine Finset.sup_le fun t ht => Finset.sup_le fun u _ => ?_
    rw [hs t (Finset.mem_range.mp ht) u]
    exact Finset.le_sup (Finset.mem_univ _)
  · refine Finset.sup_le fun j _ => ?_
    obtain ⟨⟨t, u⟩, rfl⟩ := finProdFinEquiv.surjective j
    calc f (finProdFinEquiv (t, u)) = s t.1 u := (hs t.1 t.2 u).symm
      _ ≤ Finset.univ.sup (s t.1) := Finset.le_sup (Finset.mem_univ u)
      _ ≤ M s T := Finset.le_sup (f := fun t => Finset.univ.sup (s t)) (Finset.mem_range.mpr t.2)

/-- The online softmax of a flat row. When the tiles s, v read the real rows f, g (position u of tile t is the entry
    u + B · t), after all T ≥ 1 tiles the quotient numerator / denominator is the two-pass softmax of f against g:
    the sum over j of exp (f j − max f) / Σ_j' exp (f j' − max f) times g j. -/
theorem quot_eq_flat {T : ℕ} {s v : ℕ → Fin B → EReal} {f g : Fin (T * B) → EReal} (hB : 0 < B) (hT : 1 ≤ T)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t' ∈ Finset.range T, ∑ u', Ideal.exp (s t' u' - Finset.univ.sup f)
      = ∑ j', Ideal.exp (f j' - Finset.univ.sup f) :=
    sum_tiles _ _ fun t ht u => by rw [hs t ht u]
  rw [quot_eq hB hT hsr hvr, M_flat hs, hD]
  exact sum_tiles _ _ fun t ht u => by rw [hs t ht u, hv t ht u]

/-- The online softmax of a flat row, for the tiles cut from the flat rows themselves. -/
theorem quot_eq_tiles {T : ℕ} {f g : Fin (T * B) → EReal} (hB : 0 < B) (hT : 1 ≤ T)
    (hf : ∀ j, ∃ r : ℝ, f j = (r : EReal)) (hg : ∀ j, ∃ r : ℝ, g j = (r : EReal)) (z z' : EReal) :
    Ideal.div (state (tiles f z) (tiles g z') T).a (state (tiles f z) (tiles g z') T).l
      = ∑ j, Ideal.div (Ideal.exp (f j - Finset.univ.sup f)) (∑ j', Ideal.exp (f j' - Finset.univ.sup f)) * g j :=
  quot_eq_flat hB hT hf hg (tiles_of_lt f z) (tiles_of_lt g z')

/-- The state after n tiles only reads the tiles before n. -/
theorem state_congr {s s' v v' : ℕ → Fin B → EReal} :
    ∀ n : ℕ, (∀ t < n, s t = s' t) → (∀ t < n, v t = v' t) → state s v n = state s' v' n
  | 0, _, _ => rfl
  | n + 1, hs, hv => by
    have ih := state_congr n (fun t ht => hs t (by omega)) (fun t ht => hv t (by omega))
    rw [state_succ, state_succ, ih, hs n (by omega), hv n (by omega)]

/-- The state after all T tiles of the flat real rows f, g: the maximum of f, the sum of exp (f j − max f) and the sum of
    exp (f j − max f) · g j. -/
theorem state_flat {T : ℕ} {s v : ℕ → Fin B → EReal} {f g : Fin (T * B) → EReal} (hB : 0 < B)
    (hf : ∀ j, ∃ r : ℝ, f j = (r : EReal)) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    state s v T = ⟨Finset.univ.sup f, ∑ j, Ideal.exp (f j - Finset.univ.sup f),
                   ∑ j, Ideal.exp (f j - Finset.univ.sup f) * g j⟩ := by
  have hsr : ∀ t < T, ∀ u, ∃ r : ℝ, s t u = (r : EReal) := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  rw [state_eq hB T hsr hvr, M_flat hs, hD, hN]

/-- The maximum of a real row over a nonempty finite index type is a real number. -/
theorem sup_univ_isReal {ι : Type*} [Fintype ι] [Nonempty ι] (f : ι → EReal) (hf : ∀ j, ∃ r : ℝ, f j = (r : EReal)) :
    ∃ r : ℝ, Finset.univ.sup f = (r : EReal) :=
  sup_isReal _ Finset.univ_nonempty f fun j _ => hf j

/-- The denominator of the two-pass softmax of a real row over a nonempty finite index type, the sum of
    exp (f j − max f), is a positive real number. -/
theorem softmax_den_pos {ι : Type*} [Fintype ι] [Nonempty ι] (f : ι → EReal) (hf : ∀ j, ∃ r : ℝ, f j = (r : EReal)) :
    ∃ r : ℝ, 0 < r ∧ ∑ j, Ideal.exp (f j - Finset.univ.sup f) = (r : EReal) := by
  obtain ⟨m, hm⟩ := sup_univ_isReal f hf
  refine ⟨∑ j, Real.exp ((f j).toReal - m), Finset.sum_pos (fun j _ => Real.exp_pos _) Finset.univ_nonempty, ?_⟩
  rw [hm, coe_finset_sum]
  refine Finset.sum_congr rfl fun j _ => ?_
  obtain ⟨r, hr⟩ := hf j
  rw [hr, exp_coe_sub, EReal.toReal_coe]

end Cert.LibOnlineSoftmax

end
-- ==== Proof.LibSoftmaxMasked.lean ====
/-
  The online softmax with masked positions.

  A score may be −∞: a masked position. Scores are never +∞, values are real numbers. The tile-by-tile recurrence

      m' = max (m, m_n),    l' = exp (m − m') · l + Σ_u exp (s n u − m'),    a' = exp (m − m') · a + Σ_u exp (s n u − m') · v n u,

  started at (−∞, 0, 0), still reaches after n tiles

      m = M n,     l = Σ_(t < n) Σ_u exp (s t u − M n),     a = Σ_(t < n) Σ_u exp (s t u − M n) · v t u,

  in the arithmetic of the extended reals with exp (−∞) = 0, −∞ − x = −∞ and 0 · x = 0.

  While the running maximum is −∞ every score read so far is −∞: both sums are sums of exp (−∞ − −∞) = exp (−∞) = 0, and
  the factor exp (−∞ − m') is 0 as well. Once the running maximum is a real number m, every score x read so far has
  x ≤ m, so exp (x − m) is a non-negative real number (0 for x = −∞); the factor exp (m − m') is a positive real number, and

      exp (m − m') · exp (x − m) = exp (x − m')

  for x real (the exponential of a sum) and for x = −∞ (0 = 0). So for all x ≤ m ≤ m' < +∞ the rescaling identity holds
  term by term, all terms are real numbers, and a real factor distributes over a finite sum of real numbers.

  When at least one score of the row is not −∞, the maximum of the row is a real number, the denominator is a positive real
  number (the term of a real score is positive, every other term is ≥ 0), and the quotient numerator / denominator is the sum
  of the weights exp (f j − max f) / Σ_j' exp (f j' − max f) times the values: the two-pass softmax, whose weight is 0 at
  every masked position.

  Nothing is distributed over a sum before its terms are known to be real numbers.
-/
import proofs.«120756_j43568148251343_2_alg».proof.Proof.LibOnlineSoftmax

noncomputable section

namespace Cert.LibSoftmaxMasked

open Idealize.ShloMosaic Cert.LibOnlineSoftmax
open scoped BigOperators

/-! ### Exponentials of differences below a reference point that is not +∞ -/

/-- For x ≤ m < +∞ the exponential exp (x − m) is a non-negative real number: exp (−∞ − m) = 0, and for real x and m
    it is the real exponential. (For m = −∞ also x = −∞, and −∞ − −∞ = −∞.) -/
theorem exp_sub_isReal {x m : EReal} (hx : x ≤ m) (hm : m ≠ ⊤) :
    ∃ r : ℝ, 0 ≤ r ∧ Ideal.exp (x - m) = (r : EReal) := by
  induction m using EReal.rec with
  | bot =>
    rw [le_bot_iff] at hx
    subst hx
    exact ⟨0, le_refl _, by rw [EReal.bot_sub]; rfl⟩
  | coe c =>
    induction x using EReal.rec with
    | bot => exact ⟨0, le_refl _, by rw [EReal.bot_sub]; rfl⟩
    | coe r => exact ⟨Real.exp (r - c), (Real.exp_pos _).le, exp_coe_sub r c⟩
    | top => exact absurd hx (not_le.mpr (EReal.coe_lt_top c))
  | top => exact absurd rfl hm

/-- For a real x and a real c the exponential exp (x − c) is a positive real number. -/
theorem exp_sub_pos {x : EReal} (hb : x ≠ ⊥) (ht : x ≠ ⊤) (c : ℝ) :
    ∃ r : ℝ, 0 < r ∧ Ideal.exp (x - (c : EReal)) = (r : EReal) := by
  induction x using EReal.rec with
  | bot => exact absurd rfl hb
  | coe q => exact ⟨Real.exp (q - c), Real.exp_pos _, exp_coe_sub q c⟩
  | top => exact absurd rfl ht

/-- Moving the reference point: for x ≤ m ≤ m' < +∞,  exp (m − m') · exp (x − m) = exp (x − m').
    For m = −∞ both sides are 0; for real m, m' it is exp (a + b) = exp a · exp b when x is real and 0 = 0 when x = −∞. -/
theorem exp_rescale {x m m' : EReal} (hx : x ≤ m) (hm : m ≤ m') (hm' : m' ≠ ⊤) :
    Ideal.exp (m - m') * Ideal.exp (x - m) = Ideal.exp (x - m') := by
  induction m using EReal.rec with
  | bot =>
    rw [le_bot_iff] at hx
    subst hx
    simp only [EReal.bot_sub, Ideal.exp_bot, mul_zero]
  | coe c =>
    induction m' using EReal.rec with
    | bot => exact absurd hm (not_le.mpr (EReal.bot_lt_coe c))
    | coe d =>
      induction x using EReal.rec with
      | bot => simp only [EReal.bot_sub, Ideal.exp_bot, mul_zero]
      | coe r =>
        rw [exp_coe_sub, exp_coe_sub, exp_coe_sub, ← EReal.coe_mul, ← Real.exp_add]
        congr 2; ring
      | top => exact absurd hx (not_le.mpr (EReal.coe_lt_top c))
    | top => exact absurd rfl hm'
  | top => exact absurd (top_le_iff.mp hm) hm'

/-! ### Finite sums of real numbers inside the extended reals -/

/-- A finite sum of real numbers is a real number. -/
theorem sum_isReal {ι : Type*} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_finset_sum]
  refine Finset.sum_congr rfl fun i hi => ?_
  obtain ⟨r, hr⟩ := hf i hi
  rw [hr, EReal.toReal_coe]

/-- A real factor distributes over a finite sum of real numbers. -/
theorem coe_mul_sum {ι : Type*} (S : Finset ι) (a : ℝ) (f : ι → EReal)
    (hf : ∀ i ∈ S, ∃ r : ℝ, f i = (r : EReal)) :
    (a : EReal) * ∑ i ∈ S, f i = ∑ i ∈ S, (a : EReal) * f i := by
  have e1 : ∑ i ∈ S, f i = ((∑ i ∈ S, (f i).toReal : ℝ) : EReal) := by
    rw [coe_finset_sum]
    refine Finset.sum_congr rfl fun i hi => ?_
    obtain ⟨r, hr⟩ := hf i hi
    rw [hr, EReal.toReal_coe]
  have e2 : ∑ i ∈ S, (a : EReal) * f i = ((∑ i ∈ S, a * (f i).toReal : ℝ) : EReal) := by
    rw [coe_finset_sum]
    refine Finset.sum_congr rfl fun i hi => ?_
    obtain ⟨r, hr⟩ := hf i hi
    rw [hr, EReal.toReal_coe, EReal.coe_mul]
  rw [e1, e2, ← EReal.coe_mul, Finset.mul_sum]

/-! ### The maximum of the first n tiles -/

variable {B : ℕ}

/-- Every score of a tile before n is at most the maximum M n. -/
theorem le_M (s : ℕ → Fin B → EReal) {n t : ℕ} (ht : t < n) (u : Fin B) : s t u ≤ M s n :=
  le_trans (Finset.le_sup (f := s t) (Finset.mem_univ u))
    (Finset.le_sup (f := fun t => Finset.univ.sup (s t)) (Finset.mem_range.mpr ht))

/-- The maximum grows with the number of tiles. -/
theorem M_le_succ (s : ℕ → Fin B → EReal) (n : ℕ) : M s n ≤ M s (n + 1) := by
  rw [M_succ]; exact le_max_left _ _

/-- When no score of the first n tiles is +∞, their maximum M n is not +∞. -/
theorem M_ne_top {s : ℕ → Fin B → EReal} {n : ℕ} (hs : ∀ t < n, ∀ u, s t u ≠ ⊤) : M s n ≠ ⊤ := by
  rw [M_def]
  exact ne_of_lt ((Finset.sup_lt_iff bot_lt_top).mpr fun t ht =>
    (Finset.sup_lt_iff bot_lt_top).mpr fun u _ => lt_top_iff_ne_top.mpr (hs t (Finset.mem_range.mp ht) u))

/-! ### Moving the reference point of the two sums -/

/-- Moving the reference point of the denominator from m to m' multiplies it by exp (m − m'), when every score is ≤ m
    and m ≤ m' < +∞. -/
theorem rescale_den_masked {s : ℕ → Fin B → EReal} {n : ℕ} {m m' : EReal}
    (hs : ∀ t < n, ∀ u, s t u ≤ m) (hm : m ≤ m') (hm' : m' ≠ ⊤) :
    Ideal.exp (m - m') * ∑ t ∈ Finset.range n, ∑ u, Ideal.exp (s t u - m)
      = ∑ t ∈ Finset.range n, ∑ u, Ideal.exp (s t u - m') := by
  have hmt : m ≠ ⊤ := fun h => hm' (top_le_iff.mp (h ▸ hm))
  obtain ⟨a, -, ha⟩ := exp_sub_isReal hm hm'
  have hterm : ∀ t < n, ∀ u, ∃ r : ℝ, Ideal.exp (s t u - m) = (r : EReal) := fun t ht u => by
    obtain ⟨r, -, hr⟩ := exp_sub_isReal (hs t ht u) hmt
    exact ⟨r, hr⟩
  rw [ha, coe_mul_sum _ a _ fun t ht => sum_isReal _ _ fun u _ => hterm t (Finset.mem_range.mp ht) u]
  refine Finset.sum_congr rfl fun t ht => ?_
  rw [coe_mul_sum _ a _ fun u _ => hterm t (Finset.mem_range.mp ht) u]
  refine Finset.sum_congr rfl fun u _ => ?_
  rw [← ha]
  exact exp_rescale (hs t (Finset.mem_range.mp ht) u) hm hm'

/-- Moving the reference point of the numerator from m to m' multiplies it by exp (m − m'), when every score is ≤ m,
    every value is a real number and m ≤ m' < +∞. -/
theorem rescale_num_masked {s v : ℕ → Fin B → EReal} {n : ℕ} {m m' : EReal}
    (hs : ∀ t < n, ∀ u, s t u ≤ m) (hv : ∀ t < n, ∀ u, ∃ r : ℝ, v t u = (r : EReal)) (hm : m ≤ m') (hm' : m' ≠ ⊤) :
    Ideal.exp (m - m') * ∑ t ∈ Finset.range n, ∑ u, Ideal.exp (s t u - m) * v t u
      = ∑ t ∈ Finset.range n, ∑ u, Ideal.exp (s t u - m') * v t u := by
  have hmt : m ≠ ⊤ := fun h => hm' (top_le_iff.mp (h ▸ hm))
  obtain ⟨a, -, ha⟩ := exp_sub_isReal hm hm'
  have hterm : ∀ t < n, ∀ u, ∃ r : ℝ, Ideal.exp (s t u - m) * v t u = (r : EReal) := fun t ht u => by
    obtain ⟨r, -, hr⟩ := exp_sub_isReal (hs t ht u) hmt
    obtain ⟨q, hq⟩ := hv t ht u
    exact ⟨r * q, by rw [hr, hq, EReal.coe_mul]⟩
  rw [ha, coe_mul_sum _ a _ fun t ht => sum_isReal _ _ fun u _ => hterm t (Finset.mem_range.mp ht) u]
  refine Finset.sum_congr rfl fun t ht => ?_
  rw [coe_mul_sum _ a _ fun u _ => hterm t (Finset.mem_range.mp ht) u]
  refine Finset.sum_congr rfl fun u _ => ?_
  rw [← ha, ← mul_assoc, exp_rescale (hs t (Finset.mem_range.mp ht) u) hm hm']

/-! ### The state after n tiles -/

/-- After n tiles whose scores are real numbers or −∞ and whose values are real numbers, the running maximum is M n and
    the two running sums are the sums over all n tiles taken against M n. (While M n = −∞ all three are −∞, 0, 0.) -/
theorem state_eq_masked {B : ℕ} {s v : ℕ → Fin B → EReal} :
    ∀ n : ℕ, (∀ t < n, ∀ u, s t u ≠ ⊤) → (∀ t < n, ∀ u, ∃ r : ℝ, v t u = (r : EReal)) →
      state s v n = ⟨M s n, ∑ t ∈ Finset.range n, ∑ u, Ideal.exp (s t u - M s n),
                     ∑ t ∈ Finset.range n, ∑ u, Ideal.exp (s t u - M s n) * v t u⟩ := by
  intro n
  induction n with
  | zero => intro _ _; simp
  | succ n ih =>
    intro hs hv
    have hs' : ∀ t < n, ∀ u, s t u ≠ ⊤ := fun t ht => hs t (by omega)
    have hv' : ∀ t < n, ∀ u, ∃ r : ℝ, v t u = (r : EReal) := fun t ht => hv t (by omega)
    have hle : ∀ t < n, ∀ u, s t u ≤ M s n := fun t ht u => le_M s ht u
    rw [state_succ, ih hs' hv']
    dsimp only
    rw [← M_succ, Finset.sum_range_succ, Finset.sum_range_succ,
      rescale_den_masked hle (M_le_succ s n) (M_ne_top hs),
      rescale_num_masked hle hv' (M_le_succ s n) (M_ne_top hs)]

/-! ### The whole row -/

/-- The maximum of a row over a finite index type, none of whose entries is +∞ and one of whose entries is not −∞,
    is a real number. -/
theorem sup_isReal_masked {ι : Type*} [Fintype ι] (f : ι → EReal) (hf : ∀ j, f j ≠ ⊤) (hex : ∃ j, f j ≠ ⊥) :
    ∃ m : ℝ, Finset.univ.sup f = (m : EReal) := by
  obtain ⟨j, hj⟩ := hex
  have h1 : Finset.univ.sup f ≠ ⊤ :=
    ne_of_lt ((Finset.sup_lt_iff bot_lt_top).mpr fun i _ => lt_top_iff_ne_top.mpr (hf i))
  have h2 : Finset.univ.sup f ≠ ⊥ := fun h =>
    hj (le_bot_iff.mp (h ▸ Finset.le_sup (f := f) (Finset.mem_univ j)))
  exact ⟨(Finset.univ.sup f).toReal, (EReal.coe_toReal h1 h2).symm⟩

/-- The denominator of the two-pass softmax of such a row, the sum of exp (f j − max f), is a positive real number:
    every term is a real number ≥ 0 and the term of an entry that is not −∞ is positive. -/
theorem softmax_den_pos_masked {ι : Type*} [Fintype ι] (f : ι → EReal) (hf : ∀ j, f j ≠ ⊤) (hex : ∃ j, f j ≠ ⊥) :
    ∃ r : ℝ, 0 < r ∧ ∑ j, Ideal.exp (f j - Finset.univ.sup f) = (r : EReal) := by
  obtain ⟨m, hm⟩ := sup_isReal_masked f hf hex
  have hle : ∀ j, f j ≤ (m : EReal) := fun j => hm ▸ Finset.le_sup (f := f) (Finset.mem_univ j)
  have hr : ∀ j, ∃ r : ℝ, 0 ≤ r ∧ Ideal.exp (f j - (m : EReal)) = (r : EReal) := fun j =>
    exp_sub_isReal (hle j) (EReal.coe_ne_top m)
  choose r hr0 hre using hr
  refine ⟨∑ j, r j, ?_, ?_⟩
  · obtain ⟨j, hj⟩ := hex
    refine Finset.sum_pos' (fun i _ => hr0 i) ⟨j, Finset.mem_univ j, ?_⟩
    obtain ⟨q, hqpos, hq⟩ := exp_sub_pos hj (hf j) m
    have hrq : r j = q := EReal.coe_eq_coe_iff.mp ((hre j).symm.trans hq)
    rw [hrq]; exact hqpos
  · rw [hm, coe_finset_sum]
    exact Finset.sum_congr rfl fun j _ => hre j

/-- The online softmax of a flat row with masked positions. When the tiles s, v read the rows f, g (position u of tile t
    is the entry u + B · t), no score f j is +∞, at least one score is not −∞ and the values g j are real numbers, after
    all T tiles the quotient numerator / denominator is the two-pass softmax of f against g: the sum over j of
    exp (f j − max f) / Σ_j' exp (f j' − max f) times g j. A position with f j = −∞ has weight 0 / Σ = 0. -/
theorem quot_eq_flat_masked {T B : ℕ} {s v : ℕ → Fin B → EReal} {f g : Fin (T * B) → EReal}
    (hf : ∀ j, f j ≠ ⊤) (hex : ∃ j, f j ≠ ⊥) (hg : ∀ j, ∃ r : ℝ, g j = (r : EReal))
    (hs : ∀ (t : ℕ) (ht : t < T) (u : Fin B), s t u = f (finProdFinEquiv (⟨t, ht⟩, u)))
    (hv : ∀ (t : ℕ) (ht : t < T) (u : Fin B), v t u = g (finProdFinEquiv (⟨t, ht⟩, u))) :
    Ideal.div (state s v T).a (state s v T).l
      = ∑ j, Ideal.div (Ideal.exp (f j - Finset.univ.sup f)) (∑ j', Ideal.exp (f j' - Finset.univ.sup f)) * g j := by
  have hsr : ∀ t < T, ∀ u, s t u ≠ ⊤ := fun t ht u => by rw [hs t ht u]; exact hf _
  have hvr : ∀ t < T, ∀ u, ∃ r : ℝ, v t u = (r : EReal) := fun t ht u => by rw [hv t ht u]; exact hg _
  have hD : ∑ t ∈ Finset.range T, ∑ u, Ideal.exp (s t u - Finset.univ.sup f)
      = ∑ j, Ideal.exp (f j - Finset.univ.sup f) :=
    sum_tiles _ _ fun t ht u => by rw [hs t ht u]
  have hN : ∑ t ∈ Finset.range T, ∑ u, Ideal.exp (s t u - Finset.univ.sup f) * v t u
      = ∑ j, Ideal.exp (f j - Finset.univ.sup f) * g j :=
    sum_tiles _ _ fun t ht u => by rw [hs t ht u, hv t ht u]
  obtain ⟨m, hm⟩ := sup_isReal_masked f hf hex
  obtain ⟨L, hLpos, hL⟩ := softmax_den_pos_masked f hf hex
  have hst := state_eq_masked T hsr hvr
  rw [M_flat hs, hD, hN] at hst
  rw [hst]
  dsimp only
  rw [hL]
  refine div_sum_univ (fun j => Ideal.exp (f j - Finset.univ.sup f)) g (fun j => ?_) hg hLpos.ne'
  obtain ⟨r, -, hr⟩ := exp_sub_isReal (Finset.le_sup (f := f) (Finset.mem_univ j)) (hm ▸ EReal.coe_ne_top m)
  exact ⟨r, hr⟩

/-! ### The maximum and the denominator do not read the values -/

/-- The running maximum and the running denominator are the same for any two families of values. -/
theorem state_ml_congr {B : ℕ} (s v v' : ℕ → Fin B → EReal) :
    ∀ n : ℕ, (state s v n).m = (state s v' n).m ∧ (state s v n).l = (state s v' n).l
  | 0 => ⟨rfl, rfl⟩
  | n + 1 => by
    obtain ⟨hm, hl⟩ := state_ml_congr s v v' n
    have hm' : (state s v (n + 1)).m = (state s v' (n + 1)).m := by
      rw [state_succ_m, state_succ_m, hm]
    refine ⟨hm', ?_⟩
    rw [state_succ_l, state_succ_l, hm', hm, hl]

end Cert.LibSoftmaxMasked

end
-- ==== Proof.BridgeMath.lean ====
/-
  The online recurrence meets the specification.

  A row of 2048 scores is cut into 16 tiles of 128: position u of tile t is position 128 · t + u of the row.  After the
  16 tiles of row b the online recurrence's numerator over its denominator is the two-pass softmax of the row's scores
  against feature e of the row: the specification's pooled feature.  This needs the scores never +∞, some score of the
  row not −∞, and real features.  A score is −∞ (masked) or a finite sum of products tanh (real) · real, a real number;
  for real features and real matrices the projection by the merged matrix W + U is the sum of the two projections,
  Σ_e x · (W + U) = Σ_e x · W + Σ_e x · U, and is a real number.
-/
import proofs.«120756_j43568148251343_2_alg».proof.Proof.Spec
import proofs.«120756_j43568148251343_2_alg».proof.Proof.LibOnlineSoftmax
import proofs.«120756_j43568148251343_2_alg».proof.Proof.LibSoftmaxMasked

noncomputable section

namespace Cert.BridgeMath

open Idealize.ShloMosaic Cert.LibOnlineSoftmax Cert.LibSoftmaxMasked Cert.Pool
open scoped BigOperators

/-! ## The tiles of a row -/

/-- tile t (of 16) of row b's scores: position u of tile t is position 128·t + u of the row -/
def tileS (sc : Fin 32 → Fin 2048 → EReal) (b : Fin 32) (t : ℕ) (u : Fin 128) : EReal :=
  if h : t < 16 then sc b ⟨128 * t + u.val, by have := u.isLt; omega⟩ else ⊥
/-- the same tile of feature e of row b -/
def tileX (x : Fin 32 → Fin 2048 → Fin 1024 → EReal) (b : Fin 32) (e : Fin 1024) (t : ℕ) (u : Fin 128) : EReal :=
  if h : t < 16 then x b ⟨128 * t + u.val, by have := u.isLt; omega⟩ e else 0

/-- after the 16 tiles of a row the quotient numerator / denominator of the online recurrence is the pooled feature -/
theorem online_eq_pooled (sc : Fin 32 → Fin 2048 → EReal) (x : Fin 32 → Fin 2048 → Fin 1024 → EReal)
    (hsc : ∀ b j, sc b j ≠ ⊤) (hrow : ∀ b, ∃ j, sc b j ≠ ⊥) (hx : ∀ b j e, ∃ r : ℝ, x b j e = (r : EReal)) (b : Fin 32) (e : Fin 1024) :
    Ideal.div (state (tileS sc b) (tileX x b e) 16).a (state (tileS sc b) (tileX x b e) 16).l = pooled sc x b e := by
  -- the row of 2048 = 16 · 128 entries, read along the flat index u + 128 · t
  have h := quot_eq_flat_masked (T := 16) (B := 128) (s := tileS sc b) (v := tileX x b e)
    (f := (sc b : Fin (16 * 128) → EReal)) (g := ((fun j => x b j e) : Fin (16 * 128) → EReal))
    (fun j => hsc b j) (hrow b) (fun j => hx b j e)
    (fun t ht u => by
      rw [tileS, dif_pos ht]
      exact congrArg (sc b) (Fin.ext (Nat.add_comm _ _)))
    (fun t ht u => by
      rw [tileX, dif_pos ht]
      exact congrArg (fun j => x b j e) (Fin.ext (Nat.add_comm _ _)))
  exact h

/-! ## Scores and projections are real numbers -/

/-- an unmasked position's score is a real number: tanh of a real is a real, a finite sum of products of reals is a real -/
theorem score_isReal (msk : Fin 32 → Fin 2048 → BitVec 32) (q : Fin 32 → Fin 2048 → Fin 1024 → EReal) (v : Fin 1024 → EReal)
    (hq : ∀ b j u, ∃ r : ℝ, q b j u = (r : EReal)) (hv : ∀ u, ∃ r : ℝ, v u = (r : EReal)) (b : Fin 32) (j : Fin 2048)
    (h : msk b j ≠ 0#32) : ∃ r : ℝ, score msk q v b j = (r : EReal) := by
  rw [score, if_neg h]
  refine sum_isReal _ _ fun u _ => ?_
  obtain ⟨r, hr⟩ := hq b j u
  obtain ⟨w, hw⟩ := hv u
  exact ⟨Real.tanh r * w, by rw [hr, hw, Ideal.tanh_coe, EReal.coe_mul]⟩

/-- a score is −∞ or a real number: never +∞ (tanh of a real is a real; a finite sum of products of reals is a real) -/
theorem score_ne_top (msk : Fin 32 → Fin 2048 → BitVec 32) (q : Fin 32 → Fin 2048 → Fin 1024 → EReal) (v : Fin 1024 → EReal)
    (hq : ∀ b j u, ∃ r : ℝ, q b j u = (r : EReal)) (hv : ∀ u, ∃ r : ℝ, v u = (r : EReal)) (b : Fin 32) (j : Fin 2048) : score msk q v b j ≠ ⊤ := by
  by_cases h : msk b j = 0#32
  · rw [score, if_pos h]; exact bot_ne_top
  · obtain ⟨r, hr⟩ := score_isReal msk q v hq hv b j h
    rw [hr]; exact EReal.coe_ne_top r

/-- an unmasked position's score is a real number -/
theorem score_ne_bot (msk : Fin 32 → Fin 2048 → BitVec 32) (q : Fin 32 → Fin 2048 → Fin 1024 → EReal) (v : Fin 1024 → EReal)
    (hq : ∀ b j u, ∃ r : ℝ, q b j u = (r : EReal)) (hv : ∀ u, ∃ r : ℝ, v u = (r : EReal)) (b : Fin 32) (j : Fin 2048)
    (h : msk b j ≠ 0#32) : score msk q v b j ≠ ⊥ := by
  obtain ⟨r, hr⟩ := score_isReal msk q v hq hv b j h
  rw [hr]; exact EReal.coe_ne_bot r

/-- for real features and real weight matrices the two projections agree: Σ_e x·(W + U) = Σ_e x·W + Σ_e x·U -/
theorem projMerged_eq_projSplit (x : Fin 32 → Fin 2048 → Fin 1024 → EReal) (W U : Fin 1024 → Fin 1024 → EReal)
    (hx : ∀ b j e, ∃ r : ℝ, x b j e = (r : EReal)) (hW : ∀ u e, ∃ r : ℝ, W u e = (r : EReal)) (hU : ∀ u e, ∃ r : ℝ, U u e = (r : EReal)) :
    projMerged x W U = projSplit x W U := by
  funext b j u
  rw [projMerged, projSplit, ← Finset.sum_add_distrib]
  refine Finset.sum_congr rfl fun e _ => ?_
  obtain ⟨r, hr⟩ := hx b j e
  obtain ⟨w, hw⟩ := hW u e
  obtain ⟨w', hw'⟩ := hU u e
  rw [hr, hw, hw', ← EReal.coe_add, ← EReal.coe_mul, ← EReal.coe_mul, ← EReal.coe_mul, ← EReal.coe_add, mul_add]

/-- and the projection is a real number -/
theorem projSplit_isReal (x : Fin 32 → Fin 2048 → Fin 1024 → EReal) (W U : Fin 1024 → Fin 1024 → EReal)
    (hx : ∀ b j e, ∃ r : ℝ, x b j e = (r : EReal)) (hW : ∀ u e, ∃ r : ℝ, W u e = (r : EReal)) (hU : ∀ u e, ∃ r : ℝ, U u e = (r : EReal))
    (b : Fin 32) (j : Fin 2048) (u : Fin 1024) : ∃ r : ℝ, projSplit x W U b j u = (r : EReal) := by
  have h1 : ∃ r : ℝ, ∑ e : Fin 1024, x b j e * W u e = (r : EReal) := sum_isReal _ _ fun e _ => by
    obtain ⟨r, hr⟩ := hx b j e
    obtain ⟨w, hw⟩ := hW u e
    exact ⟨r * w, by rw [hr, hw, EReal.coe_mul]⟩
  have h2 : ∃ r : ℝ, ∑ e : Fin 1024, x b j e * U u e = (r : EReal) := sum_isReal _ _ fun e _ => by
    obtain ⟨r, hr⟩ := hx b j e
    obtain ⟨w, hw⟩ := hU u e
    exact ⟨r * w, by rw [hr, hw, EReal.coe_mul]⟩
  obtain ⟨r1, e1⟩ := h1
  obtain ⟨r2, e2⟩ := h2
  exact ⟨r1 + r2, by rw [projSplit, e1, e2, EReal.coe_add]⟩

end Cert.BridgeMath

end
-- ==== Proof.Bridge.lean ====
/-
  Under the precondition, the online recurrence over the kernel's scores is the reference's result.

  The precondition says that the features, the two weight matrices and the scoring vector are real numbers at every
  entry and that every row of the mask has a non-zero word.  Then the projection by the merged matrix W + U is the sum
  of the two projections, so the kernel's score of a position is the reference's; no score is +∞, and in every row the
  position with a non-zero mask word has a real score.  So after the 16 tiles of row b the recurrence's numerator over
  its denominator is the pooled feature e of row b, which is what the reference computes at (b, e).
-/
import proofs.«120756_j43568148251343_2_alg».proof.Defs
import proofs.«120756_j43568148251343_2_alg».proof.Proof.KArgs
import proofs.«120756_j43568148251343_2_alg».proof.Proof.PreFacts
import proofs.«120756_j43568148251343_2_alg».proof.Proof.RefPooled
import proofs.«120756_j43568148251343_2_alg».proof.Proof.BridgeMath
import proofs.«120756_j43568148251343_2_alg».proof.Proof.Gen.Pre_finite_inputs

noncomputable section

namespace Cert.Bridge

open Idealize.ShloMosaic Idealize.ShloMosaic.TcCoe Idealize.SL.Sem
open Cert.KernelIdeal.Args Cert.Pool Cert.BridgeMath

/-- THE KERNEL'S QUOTIENT IS THE REFERENCE'S RESULT at (b, e), for arguments of which the precondition holds. -/
theorem kernel_eq_ref (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) (b : Fin 32) (e : Fin 1024) :
    Ideal.div (Cert.LibOnlineSoftmax.state (Cert.BridgeMath.tileS (Cert.KernelIdeal.Args.scK m c) b) (Cert.BridgeMath.tileX (Cert.KernelIdeal.Args.X m c) b e) 16).a
              (Cert.LibOnlineSoftmax.state (Cert.BridgeMath.tileS (Cert.KernelIdeal.Args.scK m c) b) (Cert.BridgeMath.tileX (Cert.KernelIdeal.Args.X m c) b e) 16).l
      = Cert.ReferenceIdeal.Read.val_main_v22 (F := Ideal)
          (m ((c.tc : Thread Cert.KernelIdeal.nD Cert.KernelIdeal.τ).loc Cert.KernelIdeal.main_arg0)) (m ((c.tc : Thread _ Cert.KernelIdeal.τ).loc Cert.KernelIdeal.main_arg1))
          (m ((c.tc : Thread _ Cert.KernelIdeal.τ).loc Cert.KernelIdeal.main_arg2)) (m ((c.tc : Thread _ Cert.KernelIdeal.τ).loc Cert.KernelIdeal.main_arg3))
          (m ((c.tc : Thread _ Cert.KernelIdeal.τ).loc Cert.KernelIdeal.main_arg4)) (ValueIdx.ix2 b e) := by
  -- what the precondition says of the five arguments on core c
  obtain ⟨h0, h2, h3, h4, hrow⟩ := Cert.PreFacts.pre_facts _ _ _ _ _ (hpre c)
  have hX : ∀ b j e, ∃ r : ℝ, X m c b j e = (r : EReal) := fun b j e => h0 _
  have hW : ∀ u e, ∃ r : ℝ, Wm m c u e = (r : EReal) := fun u e => h2 _
  have hU : ∀ u e, ∃ r : ℝ, Um m c u e = (r : EReal) := fun u e => h3 _
  have hV : ∀ u, ∃ r : ℝ, Vv m c u = (r : EReal) := fun u => h4 _
  have hM : ∀ b : Fin 32, ∃ j : Fin 2048, MK m c b j ≠ 0#32 := hrow
  -- the kernel's score is the reference's score
  have hq := projSplit_isReal _ _ _ hX hW hU
  have hsc : scK m c = score (MK m c) (projSplit (X m c) (Wm m c) (Um m c)) (Vv m c) := by
    rw [scK, projMerged_eq_projSplit _ _ _ hX hW hU]
  rw [Cert.RefPooled.ref_apply, hsc]
  exact online_eq_pooled _ _ (fun b j => score_ne_top _ _ _ hq hV b j)
    (fun b => (hM b).elim fun j hj => ⟨j, score_ne_bot _ _ _ hq hV b j hj⟩) hX b e

end Cert.Bridge

end
-- ==== Proof.KPieces.lean ====
/-
  What one grid point leaves in the three carried buffers and in the output block, as functions of what it loads.

  The body keeps, per batch tile of 8 rows, a running maximum m (8×1), a running denominator l (8×1) and a running
  numerator a (8×1024). At a point that is not the first of its batch tile it loads the feature block x, the mask
  block, the merged projection matrix and the scoring vector, and the three carried buffers, and stores
      m' = max (m, tile maximum),   l' = exp (m − m') · l + Σ p,   a' = exp (m − m') · a + Σ p · x,
  with p = exp (score − m'). At the first point of a batch tile the same, over the freshly stored (−∞, 0, 0). At the
  last point it also stores the quotient a' / l' into the output block.
-/
import proofs.«120756_j43568148251343_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new running maximum, from the loads. -/
abbrev mNew (x0 : Vec F S8x128x1024 .f32) (x1 : Vec F S8x128x1 .i32) (x2 : Vec F S1024x1024 .bf16) (x3 : Vec F S1x1024 .f32) (xs0 : Vec F S8x1 .f32) : Vec F S8x1 .f32 := k0_pay3 (k0_pay9 x0 x2 x3 x1 xs0)
/-- The new running denominator, from the loads. -/
abbrev lNew (x0 : Vec F S8x128x1024 .f32) (x1 : Vec F S8x128x1 .i32) (x2 : Vec F S1024x1024 .bf16) (x3 : Vec F S1x1024 .f32) (xs0 xs1 : Vec F S8x1 .f32) : Vec F S8x1 .f32 := k0_pay1 (k0_pay12 x0 x2 x3 x1 xs0 xs1)
/-- The new running numerator, from the loads. -/
abbrev aNew (x0 : Vec F S8x128x1024 .f32) (x1 : Vec F S8x128x1 .i32) (x2 : Vec F S1024x1024 .bf16) (x3 : Vec F S1x1024 .f32) (xs0 : Vec F S8x1 .f32) (xs2 : Vec F S8x1024 .f32) : Vec F S8x1024 .f32 :=
  k0_pay2 x0 (k0_pay10 x0 x2 x3 x1 xs0) (k0_pay11 x0 x2 x3 x1 xs0) xs2

/-! ## A point in the middle of a batch tile -/

theorem sout_B_0 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : ¬cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    sout0_B_0 c i arg2 harg2 arg3 harg3 arg4 harg4 arg5 harg5 arg6 harg6 arg7 harg7 arg8 harg8 arg9 harg9 hc0 hc1 x0 x1 x2 x3 xs0 xs1 xs2 = mNew x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

theorem sout_B_1 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : ¬cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    sout0_B_1 c i arg2 harg2 arg3 harg3 arg4 harg4 arg5 harg5 arg6 harg6 arg7 harg7 arg8 harg8 arg9 harg9 hc0 hc1 x0 x1 x2 x3 xs0 xs1 xs2 = lNew x0 x1 x2 x3 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

theorem sout_B_2 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : ¬cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    sout0_B_2 c i arg2 harg2 arg3 harg3 arg4 harg4 arg5 harg5 arg6 harg6 arg7 harg7 arg8 harg8 arg9 harg9 hc0 hc1 x0 x1 x2 x3 xs0 xs1 xs2 = aNew x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

/-! ## The last point of a batch tile: the same three updates, and the quotient into the output block -/

theorem sout_C_0 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    sout0_C_0 c i arg2 harg2 arg3 harg3 arg4 harg4 arg5 harg5 arg6 harg6 arg7 harg7 arg8 harg8 arg9 harg9 hc0 hc1 x0 x1 x2 x3 xs0 xs1 xs2 = mNew x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

theorem sout_C_1 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    sout0_C_1 c i arg2 harg2 arg3 harg3 arg4 harg4 arg5 harg5 arg6 harg6 arg7 harg7 arg8 harg8 arg9 harg9 hc0 hc1 x0 x1 x2 x3 xs0 xs1 xs2 = lNew x0 x1 x2 x3 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

theorem sout_C_2 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    sout0_C_2 c i arg2 harg2 arg3 harg3 arg4 harg4 arg5 harg5 arg6 harg6 arg7 harg7 arg8 harg8 arg9 harg9 hc0 hc1 x0 x1 x2 x3 xs0 xs1 xs2 = aNew x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

/-- The last point stores new numerator / new denominator into the output block: it reads both back from the carried
    buffers it has just stored. -/
theorem out_C_4 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : ¬cond0_0 i) (hc1 : cond0_1 i)
    (x0 : Vec F S8x128x1024 .f32) (x1 : Vec F S8x128x1 .i32) (x2 : Vec F S1024x1024 .bf16) (x3 : Vec F S1x1024 .f32) (xs0 : Vec F S8x1 .f32) (xs1 : Vec F S8x1 .f32) (xs2 : Vec F S8x1024 .f32) :
    out0_C_4 c i arg2 harg2 arg3 harg3 arg4 harg4 arg5 harg5 arg6 harg6 arg7 harg7 arg8 harg8 arg9 harg9 hc0 hc1 x0 x1 x2 x3 xs0 xs1 xs2 = k0_pay4 (aNew x0 x1 x2 x3 xs0 xs2) (lNew x0 x1 x2 x3 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readCov_unit_zero (S := S8x1) _ hz2, View.readCov_unit_zero (S := S8x1024) _ hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

/-! ## The first point of a batch tile: the updates over the freshly stored (−∞, 0, 0) -/

theorem sout_A_0 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : cond0_0 i) (hc1 : ¬cond0_1 i)
    (x0 : Vec F S8x128x1024 .f32) (x1 : Vec F S8x128x1 .i32) (x2 : Vec F S1024x1024 .bf16) (x3 : Vec F S1x1024 .f32) :
    sout0_A_0 c i arg2 harg2 arg3 harg3 arg4 harg4 arg5 harg5 arg6 harg6 arg7 harg7 arg8 harg8 arg9 harg9 hc0 hc1 x0 x1 x2 x3 = mNew x0 x1 x2 x3 k0_pay5 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x1) hz2]
  simp only [View.readCov_unit_zero (S := S8x1) _ hz2, View.readCov_unit_zero (S := S8x1024) _ hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

theorem sout_A_1 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : cond0_0 i) (hc1 : ¬cond0_1 i)
    (x0 : Vec F S8x128x1024 .f32) (x1 : Vec F S8x128x1 .i32) (x2 : Vec F S1024x1024 .bf16) (x3 : Vec F S1x1024 .f32) :
    sout0_A_1 c i arg2 harg2 arg3 harg3 arg4 harg4 arg5 harg5 arg6 harg6 arg7 harg7 arg8 harg8 arg9 harg9 hc0 hc1 x0 x1 x2 x3 = lNew x0 x1 x2 x3 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x1) hz2]
  simp only [View.readCov_unit_zero (S := S8x1) _ hz2, View.readCov_unit_zero (S := S8x1024) _ hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

theorem sout_A_2 (c : Dev nD) (i : grid0.Coords) (arg2 : Memref sig .tc .vmem S8x128x1024 .f32) (harg2 : arg2.IsWhole) (arg3 : Memref sig .tc .vmem S8x128x1 .i32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1 .f32) (harg7 : arg7.IsWhole) (arg8 : Memref sig .tc .vmem S8x1 .f32) (harg8 : arg8.IsWhole) (arg9 : Memref sig .tc .vmem S8x1024 .f32) (harg9 : arg9.IsWhole) (hc0 : cond0_0 i) (hc1 : ¬cond0_1 i)
    (x0 : Vec F S8x128x1024 .f32) (x1 : Vec F S8x128x1 .i32) (x2 : Vec F S1024x1024 .bf16) (x3 : Vec F S1x1024 .f32) :
    sout0_A_2 c i arg2 harg2 arg3 harg3 arg4 harg4 arg5 harg5 arg6 harg6 arg7 harg7 arg8 harg8 arg9 harg9 hc0 hc1 x0 x1 x2 x3 = aNew x0 x1 x2 x3 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x1024) hz2]
  simp only [View.readCov_unit_zero (S := S8x1) _ hz2, View.readCov_unit_zero (S := S8x1024) _ hz2]
  simp only [View.readAt_eq_ld, harg2.read_unread, harg3.read_unread, harg4.read_unread, harg5.read_unread, harg6.read_unread, harg7.read_unread, harg8.read_unread, harg9.read_unread,
    View.ld_unit_zero (S := S8x128x1024) hz3, View.ld_unit_zero (S := S8x128x1) hz3, View.ld_unit_zero (S := S1024x1024) hz2, View.ld_unit_zero (S := S1x1024) hz2, View.ld_unit_zero (S := S8x1) hz2, View.ld_unit_zero (S := S8x1024) hz2]

end Cert.KernelIdeal.Pieces

end
-- ==== Proof.KOuts.lean ====
/-
  What the three carried buffers and the output block hold after each grid point, in terms of the body's update
  functions: at the first point of a batch tile the update of (−∞, 0, 0); at every other point the update of what
  the point before left; at the last point the output block holds new numerator / new denominator.
-/
import proofs.«120756_j43568148251343_2_alg».proof.Proof.KPieces

set_option maxRecDepth 16384

noncomputable section

namespace Cert.KernelIdeal.Outs

open Idealize.ShloMosaic Idealize.ShloMosaic.TcCoe Idealize.SL.Sem
open Cert.KernelIdeal Cert.KernelIdeal.Gen Cert.KernelIdeal.Pieces

variable {F : FTy → Type} [FloatOps F] [Named F]
variable (m : (ℓ : Loc nD τ sig) → Buf (Elt F) ℓ) (c : Dev nD)

/-- The four input blocks of point t: features, mask, merged projection matrix, scoring vector. -/
def blk0 (t : Fin cfg0.N) : Vec F S8x128x1024 .f32 := iblk m c 0 t
def blk1 (t : Fin cfg0.N) : Vec F S8x128x1 .i32 := iblk m c 1 t
def blk2 (t : Fin cfg0.N) : Vec F S1024x1024 .bf16 := iblk m c 2 t
def blk3 (t : Fin cfg0.N) : Vec F S1x1024 .f32 := iblk m c 3 t

/-- What the point before t left in the three carried buffers. -/
def prevM (t : Fin cfg0.N) : Vec F S8x1 .f32 := (outsAt0 m c (t.val - 1) (Nat.lt_of_le_of_lt (Nat.sub_le _ _) t.isLt)).2.1
def prevL (t : Fin cfg0.N) : Vec F S8x1 .f32 := (outsAt0 m c (t.val - 1) (Nat.lt_of_le_of_lt (Nat.sub_le _ _) t.isLt)).2.2.1
def prevA (t : Fin cfg0.N) : Vec F S8x1024 .f32 := (outsAt0 m c (t.val - 1) (Nat.lt_of_le_of_lt (Nat.sub_le _ _) t.isLt)).2.2.2

/-! ## The first point of a batch tile: the update of the freshly stored (−∞, 0, 0) -/

set_option maxHeartbeats 1000000 in
/-- The maximum after the first point of a batch tile. -/
theorem outs_A_m (t : Fin cfg0.N) (h0 : t.val % 16 = 0) (h1 : ¬t.val % 16 = 15) :
    (outsAt0 m c t.val t.isLt).2.1 = mNew (blk0 m c t) (blk1 m c t) (blk2 m c t) (blk3 m c t) k0_pay5 :=
  (congrArg (fun p => p.2.1) (outsAt0_A m c t h0 h1)).trans (sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t))

set_option maxHeartbeats 1000000 in
/-- The denominator after the first point of a batch tile. -/
theorem outs_A_l (t : Fin cfg0.N) (h0 : t.val % 16 = 0) (h1 : ¬t.val % 16 = 15) :
    (outsAt0 m c t.val t.isLt).2.2.1 = lNew (blk0 m c t) (blk1 m c t) (blk2 m c t) (blk3 m c t) k0_pay5 k0_pay6 :=
  (congrArg (fun p => p.2.2.1) (outsAt0_A m c t h0 h1)).trans (sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t))

set_option maxHeartbeats 1000000 in
/-- The numerator after the first point of a batch tile. -/
theorem outs_A_a (t : Fin cfg0.N) (h0 : t.val % 16 = 0) (h1 : ¬t.val % 16 = 15) :
    (outsAt0 m c t.val t.isLt).2.2.2 = aNew (blk0 m c t) (blk1 m c t) (blk2 m c t) (blk3 m c t) k0_pay5 k0_pay7 :=
  (congrArg (fun p => p.2.2.2) (outsAt0_A m c t h0 h1)).trans (sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (blk0 m c t) (blk1 m c t) (blk2 m c t) (blk3 m c t))

/-! ## A middle point: the update of what the point before left -/

set_option maxHeartbeats 1000000 in
/-- The maximum after a middle point. -/
theorem outs_B_m (t : Fin cfg0.N) (h0 : ¬t.val % 16 = 0) (h1 : ¬t.val % 16 = 15) :
    (outsAt0 m c t.val t.isLt).2.1 = mNew (blk0 m c t) (blk1 m c t) (blk2 m c t) (blk3 m c t) (prevM m c t) :=
  (congrArg (fun p => p.2.1) (outsAt0_B m c t h0 h1)).trans (sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (blk2 m c t) (blk3 m c t) (prevM m c t) (prevL m c t) (prevA m c t))

set_option maxHeartbeats 1000000 in
/-- The denominator after a middle point. -/
theorem outs_B_l (t : Fin cfg0.N) (h0 : ¬t.val % 16 = 0) (h1 : ¬t.val % 16 = 15) :
    (outsAt0 m c t.val t.isLt).2.2.1 = lNew (blk0 m c t) (blk1 m c t) (blk2 m c t) (blk3 m c t) (prevM m c t) (prevL m c t) :=
  (congrArg (fun p => p.2.2.1) (outsAt0_B m c t h0 h1)).trans (sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (blk2 m c t) (blk3 m c t) (prevM m c t) (prevL m c t) (prevA m c t))

set_option maxHeartbeats 1000000 in
/-- The numerator after a middle point. -/
theorem outs_B_a (t : Fin cfg0.N) (h0 : ¬t.val % 16 = 0) (h1 : ¬t.val % 16 = 15) :
    (outsAt0 m c t.val t.isLt).2.2.2 = aNew (blk0 m c t) (blk1 m c t) (blk2 m c t) (blk3 m c t) (prevM m c t) (prevA m c t) :=
  (congrArg (fun p => p.2.2.2) (outsAt0_B m c t h0 h1)).trans (sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (blk0 m c t) (blk1 m c t) (blk2 m c t) (blk3 m c t) (prevM m c t) (prevL m c t) (prevA m c t))

/-! ## The last point of a batch tile: the same update, and the quotient in the output block -/

set_option maxHeartbeats 1000000 in
/-- The maximum after the last point of a batch tile. -/
theorem outs_C_m (t : Fin cfg0.N) (h0 : ¬t.val % 16 = 0) (h1 : t.val % 16 = 15) :
    (outsAt0 m c t.val t.isLt).2.1 = mNew (blk0 m c t) (blk1 m c t) (blk2 m c t) (blk3 m c t) (prevM m c t) :=
  (congrArg (fun p => p.2.1) (outsAt0_C m c t h0 h1)).trans (sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (prevM m c t) (prevL m c t) (prevA m c t))

set_option maxHeartbeats 1000000 in
/-- The denominator after the last point of a batch tile. -/
theorem outs_C_l (t : Fin cfg0.N) (h0 : ¬t.val % 16 = 0) (h1 : t.val % 16 = 15) :
    (outsAt0 m c t.val t.isLt).2.2.1 = lNew (blk0 m c t) (blk1 m c t) (blk2 m c t) (blk3 m c t) (prevM m c t) (prevL m c t) :=
  (congrArg (fun p => p.2.2.1) (outsAt0_C m c t h0 h1)).trans (sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (prevM m c t) (prevL m c t) (prevA m c t))

set_option maxHeartbeats 1000000 in
/-- The numerator after the last point of a batch tile. -/
theorem outs_C_a (t : Fin cfg0.N) (h0 : ¬t.val % 16 = 0) (h1 : t.val % 16 = 15) :
    (outsAt0 m c t.val t.isLt).2.2.2 = aNew (blk0 m c t) (blk1 m c t) (blk2 m c t) (blk3 m c t) (prevM m c t) (prevA m c t) :=
  (congrArg (fun p => p.2.2.2) (outsAt0_C m c t h0 h1)).trans (sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (prevM m c t) (prevL m c t) (prevA m c t))

set_option maxHeartbeats 1000000 in
/-- The output block after the last point of a batch tile: new numerator / new denominator. -/
theorem outs_C_o (t : Fin cfg0.N) (h0 : ¬t.val % 16 = 0) (h1 : t.val % 16 = 15) :
    (outsAt0 m c t.val t.isLt).1 = k0_pay4 (aNew (blk0 m c t) (blk1 m c t) (blk2 m c t) (blk3 m c t) (prevM m c t) (prevA m c t)) (lNew (blk0 m c t) (blk1 m c t) (blk2 m c t) (blk3 m c t) (prevM m c t) (prevL m c t)) :=
  (congrArg (fun p => p.1) (outsAt0_C m c t h0 h1)).trans (out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (blk0 m c t) (blk1 m c t) (blk2 m c t) (blk3 m c t) (prevM m c t) (prevL m c t) (prevA m c t))

end Cert.KernelIdeal.Outs

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibMergeRows.lean ====
/-
  Merging an array's two leading axes into one axis of rows, and splitting them again, read at an index.

  A reshape keeps every element's row-major position. For an A × B × C array read as R × C rows (R = A · B), the row
  b · B + l of the merged array is the row (b, l) of the original: entry (b · B + l, d) is entry (b, l, d). For an
  R × K array read as A × B × K, entry (b, l, k) is entry (b · B + l, k). The row-major position of (b, l, d) is
  (b · B + l) · C + d, the position of (r, d) is r · C + d, and the two agree when r = b · B + l.
-/
import Idealize.ShloMosaic.Lib.Pipeline.Value
import Idealize.ShloMosaic.Lib.ValueIdx

namespace Cert.LibMergeRows

open Idealize.ShloMosaic Idealize.ShloMosaic.ValueIdx

variable {α : Type}

/-- An A × B × C array reshaped to R × C, at (r, d) with r = b · B + l, reads the array at (b, l, d). -/
theorem shapeCast_merge_apply {A B C R : ℕ} (x : (⟨3, ![A, B, C]⟩ : Shape).Idx → α)
    (h : (⟨3, ![A, B, C]⟩ : Shape).ShapeCasts ⟨2, ![R, C]⟩) (b : Fin A) (l : Fin B) (d : Fin C) (r : Fin R)
    (hr : r.val = b.val * B + l.val) : shapeCast ⟨2, ![R, C]⟩ x h (ix2 r d) = x (ix3 b l d) :=
  shapeCast_apply x h _ _ (by
    rw [Shape.rowMajor_val_three, Shape.rowMajor_val_two]
    show (b.val * B + l.val) * C + d.val = r.val * C + d.val
    rw [hr])

/-- An R × K array reshaped to A × B × K, at (b, l, k), reads the array at (r, k) with r = b · B + l. -/
theorem shapeCast_split_apply {A B K R : ℕ} (y : (⟨2, ![R, K]⟩ : Shape).Idx → α)
    (h : (⟨2, ![R, K]⟩ : Shape).ShapeCasts ⟨3, ![A, B, K]⟩) (b : Fin A) (l : Fin B) (k : Fin K) (r : Fin R)
    (hr : r.val = b.val * B + l.val) : shapeCast ⟨3, ![A, B, K]⟩ y h (ix3 b l k) = y (ix2 r k) :=
  shapeCast_apply y h _ _ (by
    rw [Shape.rowMajor_val_two, Shape.rowMajor_val_three]
    show r.val * K + k.val = (b.val * B + l.val) * K + k.val
    rw [hr])

end Cert.LibMergeRows
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«120756_j43568148251343_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.LibUnitAxes.lean ====
/-
  Unit axes added or repeated, read at an index.

  A shape cast that only inserts unit axes keeps the row-major position, so it reads the operand at the index with
  those axes removed: [a, b] → [a, 1, b] at (i, u, j) is the operand at (i, j), and [a] → [1, 1, a] at (u, u', i) is the
  operand at i. A broadcast along unit axes of a three-axis array reads the operand with those coordinates put to 0:
  [a, 1, c], [1, b, c] and [1, 1, c] broadcast to [a, b, c]. All five are generic in the extents and in the element
  type; an axis of the operand whose extent happens to be 1 has only the coordinate 0, so the two readings agree there.
-/
import Idealize.ShloMosaic.Lib.ValueIdx
import Idealize.ShloMosaic.Lib.Pipeline.Value

noncomputable section

namespace Cert.LibUnitAxes

open Idealize.ShloMosaic Idealize.ShloMosaic.ValueIdx

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, u', i)`, the operand at `i`. -/
theorem shapeCast_a_11a_apply {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp only [hu, hu', Nat.zero_mul, Nat.zero_add, Nat.mul_one])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

end Cert.LibUnitAxes

end
-- ==== Proof.KStep.lean ====
/-
  The body's arithmetic read at an index, on the extended reals.

  One step of the body reads a block of features x0 (8 rows, 128 positions, 1024 features), a block of mask words x1
  (8 rows, 128 positions), the projection matrix x2 (feature by unit) and the scoring vector x3 (one entry per unit).
  The score of position s of row r is

      Σ_u tanh (Σ_e x0 (r, s, e) · x2 (e, u)) · x3 (u),

  replaced by −∞ where the mask word is 0. The step joins the running maximum of row r with the maximum of the row's 128
  scores, rescales the running denominator by exp (old maximum − new maximum) and adds the sum of exp (score − new maximum),
  rescales the running numerator by the same factor and adds Σ_s exp (score − new maximum) · x0 (r, s, e), and at the end
  divides the numerator by the denominator. Each lemma below reads one of these vectors at one index.

  The feature block is read as 1024 rows of 1024 features: row r · 128 + s of the merged block is position s of row r, and
  the column of 1024 row sums split back into 8 by 128 puts the sum of row r · 128 + s at (r, s). A sum or a maximum along
  the middle axis of a three-axis block, read at (r, e), runs over the block's entries (r, s, e). The fold of the maximum
  from −∞ over a finite index set is the supremum over it.
-/
import proofs.«120756_j43568148251343_2_alg».proof.Proof.Gen.KernelIdeal.Skeleton
import proofs.«120756_j43568148251343_2_alg».proof.Proof.LibDot
import proofs.«120756_j43568148251343_2_alg».proof.Proof.LibMergeRows
import proofs.«120756_j43568148251343_2_alg».proof.Proof.LibColumn
import proofs.«120756_j43568148251343_2_alg».proof.Proof.LibRows
import proofs.«120756_j43568148251343_2_alg».proof.Proof.LibUnitAxes
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Step

open Cert.KernelIdeal Cert.KernelIdeal.Gen Idealize.ShloMosaic Idealize.ShloMosaic.ValueIdx
open scoped BigOperators

/-! ### Layout and reductions of a three-axis block, read at an index -/

section Generic
variable {a b c : ℕ}

/-- An [a, b, 1] block broadcast to [a, b, c] reads, at (p, q, w), the block at (p, q, 0). -/
theorem broadcastTo_ab1_abc_apply {α : Type} (v : (⟨3, ![a, b, 1]⟩ : Shape).Idx → α)
    (h : (⟨3, ![a, b, 1]⟩ : Shape).Broadcasts ⟨3, ![a, b, c]⟩) (p : Fin a) (q : Fin b) (w : Fin c) :
    broadcastTo ⟨3, ![a, b, c]⟩ v h (ix3 p q w) = v (ix3 p q (0 : Fin 1)) := by
  refine broadcastTo_apply v h (ix3 p q w) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else w.val
    rw [if_pos rfl]

/-- The index of an [a, b, c] block over (p, q) with the coordinate k put back on the middle axis is (p, k, q). -/
theorem lift_mid (h : (⟨3, ![a, b, c]⟩ : Shape).Reduces [1] ⟨2, ![a, c]⟩) (p : Fin a) (q : Fin c) (k : Fin b) :
    h.lift (ix2 p q) k = ix3 p k q := by
  funext d
  match d with
  | ⟨0, _⟩ => exact Fin.ext rfl
  | ⟨1, _⟩ => exact Fin.ext rfl
  | ⟨2, _⟩ => exact Fin.ext rfl

/-- A sum along the middle axis, read at (p, q): the sum over k of the entries (p, k, q). -/
theorem midSum_apply {φ : FTy} (v : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ v acc h hφ hacc (ix2 p q) = ∑ k : Fin b, v (ix3 p k q) :=
  (Ideal.multiReduction_add_single v acc h hφ hacc (ix2 p q)).trans
    (Finset.sum_congr rfl fun k _ => congrArg v (lift_mid h p q k))

/-- A maximum along the middle axis, read at (p, q): the fold of max over k of the entries (p, k, q) from the start
    value. -/
theorem midMaxf_apply {φ : FTy} (v : FVec Ideal ⟨3, ![a, b, c]⟩ φ) (acc : BitVec φ.bits)
    (h : (⟨3, ![a, b, c]⟩ : Shape).Reduces [1] ⟨2, ![a, c]⟩) (hφ : FKind.Formats φ)
    (hacc : acc = FKind.maximumf.neutral φ hφ) (p : Fin a) (q : Fin c) :
    multiReduction .maximumf [1] ⟨2, ![a, c]⟩ v acc h hφ hacc (ix2 p q)
      = (Finset.univ : Finset (Fin b)).fold max (Ideal.ofBits φ acc) (fun k => v (ix3 p k q)) :=
  (Ideal.multiReduction_maximumf_single v acc h hφ hacc (ix2 p q)).trans
    (Finset.fold_congr fun k _ => congrArg v (lift_mid h p q k))

/-- The fold of the maximum from −∞ over a finite set is the supremum over it. -/
theorem fold_max_bot {ι : Type*} (S : Finset ι) (f : ι → EReal) : S.fold max ⊥ f = S.sup f := rfl

end Generic

/-- The word 0xFF800000 denotes −∞. -/
theorem ofBits_neg_inf : Ideal.ofBits .f32 0xFF800000#32 = ⊥ := by simp [Ideal.ofBits, Ideal.ieee]

/-- The named constant "neg_big" denotes −∞. -/
theorem neg_big : Named.named (F := Ideal) κ "neg_big" (φ := .f32) 0xFF333332#32 = ⊥ :=
  IdealRules.named_const.ideal_named_scalar _ _ _ _ rfl

/-! ### The small vectors -/

/-- The stored running denominator is the vector itself. -/
theorem pay1_eq (v : FVec Ideal S8x1 .f32) : k0_pay1 (F := Ideal) v = v := by
  unfold k0_pay1
  exact shapeCast_self v _

/-- The stored running maximum is the vector itself. -/
theorem pay3_eq (v : FVec Ideal S8x1 .f32) : k0_pay3 (F := Ideal) v = v := by
  unfold k0_pay3
  exact shapeCast_self v _

/-- The running maximum starts at −∞. -/
theorem pay5_apply (j : S8x1.Idx) : k0_pay5 (F := Ideal) j = ⊥ := by
  unfold k0_pay5
  refine (congrFun (shapeCast_self _ _) j).trans ?_
  exact ofBits_neg_inf

/-- The running denominator starts at 0. -/
theorem pay6_apply (j : S8x1.Idx) : k0_pay6 (F := Ideal) j = 0 := by
  unfold k0_pay6
  refine (congrFun (shapeCast_self _ _) j).trans ?_
  exact Ideal.ofBits_zero_f32

/-- The running numerator starts at 0. -/
theorem pay7_apply (j : S8x1024.Idx) : k0_pay7 (F := Ideal) j = 0 := by
  unfold k0_pay7
  refine (congrFun (shapeCast_self _ _) j).trans ?_
  exact Ideal.ofBits_zero_f32

/-- The result: the numerator at (r, e) divided by the denominator of row r. -/
theorem pay4_apply (v54 : Vec Ideal S8x1024 .f32) (v55 : Vec Ideal S8x1 .f32) (r : Fin 8) (e : Fin 1024) :
    k0_pay4 (F := Ideal) v54 v55 (ix2 r e) = Ideal.div (v54 (ix2 r e)) (v55 (ix2 r 0)) := by
  unfold k0_pay4
  refine (divf_apply _ _ _).trans ?_
  exact congrArg (Ideal.div (v54 (ix2 r e))) (Cert.LibColumn.broadcastTo_a1_ab_apply v55 _ r e)

/-- The new numerator at (r, e): the old one scaled by the factor of row r, plus the sum over the 128 positions of the
    weight of the position times its feature e. -/
theorem pay2_apply (x0 : Vec Ideal S8x128x1024 .f32) (v26 : FVec Ideal S8x1 .f32) (v30 : FVec Ideal S8x128x1 .f32)
    (v41 : Vec Ideal S8x1024 .f32) (r : Fin 8) (e : Fin 1024) :
    k0_pay2 (F := Ideal) x0 v26 v30 v41 (ix2 r e)
      = v26 (ix2 r 0) * v41 (ix2 r e) + ∑ s : Fin 128, v30 (ix3 r s 0) * x0 (ix3 r s e) := by
  unfold k0_pay2
  refine (congrFun (shapeCast_self _ _) (ix2 r e)).trans ?_
  refine (addf_apply _ _ _).trans ?_
  refine congrArg₂ (· + ·) ?_ ?_
  · refine (mulf_apply _ _ _).trans ?_
    exact congrArg (· * v41 (ix2 r e)) (Cert.LibColumn.broadcastTo_a1_ab_apply v26 _ r e)
  · refine (midSum_apply _ _ _ _ _ r e).trans ?_
    refine Finset.sum_congr rfl fun s _ => ?_
    refine (mulf_apply _ _ _).trans ?_
    exact congrArg (· * x0 (ix3 r s e)) (broadcastTo_ab1_abc_apply v30 _ r s e)

/-! ### The score tile -/

section AtIdeal
variable {S : Shape} {φ : FTy}

/-- A hyperbolic tangent at an index is the hyperbolic tangent of the element. -/
theorem tanh_apply (a : FVec Ideal S φ) (i : S.Idx) : tanh a i = Ideal.tanh (a i) := rfl
/-- An exponential at an index is the exponential of the element. -/
theorem exp_apply (a : FVec Ideal S φ) (i : S.Idx) : exp a i = Ideal.exp (a i) := rfl
/-- A comparison of words at an index compares the elements. -/
theorem cmpi_apply {w : ℕ} (p : CmpIPredicate) (a b : IVec S w) (i : S.Idx) : cmpi p a b i = IntOp.cmpi p (a i) (b i) := rfl

end AtIdeal

/-- The select on "the word is 0" is the if on it. -/
theorem select_eq_zero (w : BitVec 32) (A B : EReal) :
    Scalar.select (IntOp.cmpi .eq w 0#32) A B = if w = 0#32 then A else B := by
  by_cases h : w = 0#32
  · simp [Scalar.select, IntOp.cmpi, h]
  · have hb : (w == 0#32) = false := beq_eq_false_iff_ne.mpr h
    show (if BitVec.ofBool (w == 0#32) = 1#1 then A else B) = if w = 0#32 then A else B
    rw [hb, if_neg h]
    exact if_neg (by decide)

/-- The same, with the word and the two values named. -/
theorem select_tile (w w' : BitVec 32) (hw : w = w') (A A' B B' : EReal) (hA : A = A') (hB : B = B') :
    Scalar.select (IntOp.cmpi .eq w 0#32) A B = if w' = 0#32 then A' else B' := by
  subst hw hA hB
  exact select_eq_zero w A B

/-- Row ρ of the scores of 1024 merged rows: the sum over the units u of tanh of the product of row ρ of the features with
    column u of the projection, times the scoring vector's entry u. -/
theorem score_row (y0 y2 : FVec Ideal S1024x1024 .bf16) (y3 : FVec Ideal S1x1024 .f32) (ρ : Fin 1024) :
    multiReduction (F := Ideal) .add [1] S1024
        (mulf (tanh (matmul dot_S1024x1024_S1024x1024_S1024x1024_1_0_0_1_n_n none y0 y2
                (constant S1024x1024 .f32 0x00000000#32)))
              (broadcastTo S1024x1024 y3 broadcasts_S1x1024_S1024x1024))
        0x00000000#32 reduces_S1024x1024_S1024 (.inl rfl) rfl (ix1 ρ)
      = ∑ u : Fin 1024, Ideal.tanh (∑ e : Fin 1024, y0 (ix2 ρ e) * y2 (ix2 e u)) * y3 (ix2 0 u) := by
  refine (Cert.LibRows.rowSum_apply _ _ _ _ _ ρ).trans ?_
  refine Finset.sum_congr rfl fun u _ => ?_
  refine (mulf_apply _ _ _).trans ?_
  refine congrArg₂ (· * ·) ?_ (broadcastTo_1b_ab_apply y3 _ ρ u)
  refine (tanh_apply _ _).trans ?_
  refine congrArg Ideal.tanh ?_
  exact Cert.LibDot.matmul_zero_plain_apply _ rfl rfl rfl rfl rfl rfl none y0 y2 (ix2 ρ u)

variable (x0 : Vec Ideal S8x128x1024 .f32) (x1 : Vec Ideal S8x128x1 .i32) (x2 : Vec Ideal S1024x1024 .bf16)
  (x3 : Vec Ideal S1x1024 .f32)

/-- The masked score of position s of row r of the tile. -/
def tsc (r : Fin 8) (s : Fin 128) : EReal :=
  if x1 (ix3 r s 0) = 0#32 then ⊥
  else ∑ u : Fin 1024, Ideal.tanh (∑ e : Fin 1024, x0 (ix3 r s e) * x2 (ix2 e u)) * x3 (ix2 0 u)

/-- The tile's row maximum joined with the carried one. -/
def tmax (xs0 : Vec Ideal S8x1 .f32) (r : Fin 8) : EReal :=
  max (xs0 (ix2 r 0)) (Finset.univ.sup fun s : Fin 128 => tsc x0 x1 x2 x3 r s)

/-- The score tile at (r, s): −∞ where the mask word is 0, the score elsewhere. -/
theorem pay8_apply (r : Fin 8) (s : Fin 128) :
    k0_pay8 (F := Ideal) x0 x2 x3 x1 (ix3 r s 0) = tsc x0 x1 x2 x3 r s := by
  have hρ : r.val * 128 + s.val < 1024 := by omega
  unfold k0_pay8 tsc
  refine (select_apply _ _ _ _).trans ?_
  refine select_tile _ _ (congrFun (shapeCast_self x1 _) (ix3 r s 0)) _ _ _ _ neg_big ?_
  refine (Cert.LibMergeRows.shapeCast_split_apply _ _ r s (0 : Fin 1) (⟨r.val * 128 + s.val, hρ⟩ : Fin 1024) rfl).trans ?_
  refine (Cert.LibColumn.shapeCast_a_a1_apply _ _ (⟨r.val * 128 + s.val, hρ⟩ : Fin 1024) (0 : Fin 1)).trans ?_
  refine (score_row _ _ x3 ⟨r.val * 128 + s.val, hρ⟩).trans ?_
  refine Finset.sum_congr rfl fun u _ => ?_
  refine congrArg (fun t => Ideal.tanh t * x3 (ix2 0 u)) ?_
  refine Finset.sum_congr rfl fun e _ => ?_
  refine congrArg₂ (· * ·) ?_ ?_
  · refine (truncf_apply (ψ := .bf16) _ bitsLt_bf16_f32 _).trans ?_
    exact Cert.LibMergeRows.shapeCast_merge_apply x0 _ r s e (⟨r.val * 128 + s.val, hρ⟩ : Fin 1024) rfl
  · exact congrFun (shapeCast_self x2 _) (ix2 e u)

/-! ### The running maximum, the factor, the weights and the running denominator -/

/-- The maximum along the middle axis of a tile of scores, joined with the carried maximum, read at row r: the larger of
    the carried maximum and the supremum of the row's 128 scores. -/
theorem max_step (sc : FVec Ideal S8x128x1 .f32) (xs0 : Vec Ideal S8x1 .f32) (r : Fin 8) :
    maximumf xs0 (multiReduction (F := Ideal) .maximumf [1] S8x1 sc 0xFF800000#32 reduces_S8x128x1_S8x1 (.inl rfl) rfl)
        (ix2 r 0)
      = max (xs0 (ix2 r 0)) (Finset.univ.sup fun s : Fin 128 => sc (ix3 r s 0)) := by
  refine (maximumf_apply _ _ _).trans ?_
  refine congrArg (max (xs0 (ix2 r 0))) ?_
  refine (midMaxf_apply sc _ _ _ _ r (0 : Fin 1)).trans ?_
  refine (congrArg (fun z => (Finset.univ : Finset (Fin 128)).fold max z fun k => sc (ix3 r k 0)) ofBits_neg_inf).trans ?_
  exact fold_max_bot _ _

/-- The new running maximum of row r. -/
theorem pay9_apply (xs0 : Vec Ideal S8x1 .f32) (r : Fin 8) :
    k0_pay9 (F := Ideal) x0 x2 x3 x1 xs0 (ix2 r 0) = tmax x0 x1 x2 x3 xs0 r := by
  unfold k0_pay9 tmax
  refine (max_step _ xs0 r).trans ?_
  refine congrArg (max (xs0 (ix2 r 0))) ?_
  exact congrArg (Finset.univ : Finset (Fin 128)).sup (funext fun s => pay8_apply x0 x1 x2 x3 r s)

/-- The rescaling factor of row r: exp (old maximum − new maximum). -/
theorem pay10_apply (xs0 : Vec Ideal S8x1 .f32) (r : Fin 8) :
    k0_pay10 (F := Ideal) x0 x2 x3 x1 xs0 (ix2 r 0) = Ideal.exp (xs0 (ix2 r 0) - tmax x0 x1 x2 x3 xs0 r) := by
  unfold k0_pay10
  refine (exp_apply _ _).trans ?_
  refine congrArg Ideal.exp ?_
  refine (subf_apply _ _ _).trans ?_
  exact congrArg (xs0 (ix2 r 0) - ·) (pay9_apply x0 x1 x2 x3 xs0 r)

/-- The weight of position s of row r: exp (score − new maximum). -/
theorem pay11_apply (xs0 : Vec Ideal S8x1 .f32) (r : Fin 8) (s : Fin 128) :
    k0_pay11 (F := Ideal) x0 x2 x3 x1 xs0 (ix3 r s 0)
      = Ideal.exp (tsc x0 x1 x2 x3 r s - tmax x0 x1 x2 x3 xs0 r) := by
  unfold k0_pay11
  refine (exp_apply _ _).trans ?_
  refine congrArg Ideal.exp ?_
  refine (subf_apply _ _ _).trans ?_
  refine congrArg₂ (· - ·) (pay8_apply x0 x1 x2 x3 r s) ?_
  refine (Cert.LibUnitAxes.broadcastTo_a1c_abc_apply _ _ r s (0 : Fin 1)).trans ?_
  refine (Cert.LibUnitAxes.shapeCast_ab_a1b_apply _ _ r (0 : Fin 1) (0 : Fin 1)).trans ?_
  exact pay9_apply x0 x1 x2 x3 xs0 r

/-- The new running denominator of row r: the old one scaled by the factor, plus the sum of the row's 128 weights. -/
theorem pay12_apply (xs0 xs1 : Vec Ideal S8x1 .f32) (r : Fin 8) :
    k0_pay12 (F := Ideal) x0 x2 x3 x1 xs0 xs1 (ix2 r 0)
      = Ideal.exp (xs0 (ix2 r 0) - tmax x0 x1 x2 x3 xs0 r) * xs1 (ix2 r 0)
        + ∑ s : Fin 128, Ideal.exp (tsc x0 x1 x2 x3 r s - tmax x0 x1 x2 x3 xs0 r) := by
  unfold k0_pay12
  refine (addf_apply _ _ _).trans ?_
  refine congrArg₂ (· + ·) ?_ ?_
  · refine (mulf_apply _ _ _).trans ?_
    exact congrArg (· * xs1 (ix2 r 0)) (pay10_apply x0 x1 x2 x3 xs0 r)
  · refine (midSum_apply _ _ _ _ _ r (0 : Fin 1)).trans ?_
    exact Finset.sum_congr rfl fun s _ => pay11_apply x0 x1 x2 x3 xs0 r s

end Cert.KernelIdeal.Step

end
-- ==== Proof.KStepState.lean ====
/-
  One grid point advances the online softmax recurrence by one tile.

  Row r of a batch tile carries (m, l, a). If before the point they are the recurrence's state after k tiles, and the
  point's masked scores and features of that row are tile k's, then what the point stores is the state after k + 1
  tiles: the new maximum is max (m, tile maximum); the new denominator exp (m − m') · l + Σ_s exp (score_s − m'); the
  new numerator exp (m − m') · a + Σ_s exp (score_s − m') · x_s; and the quotient stored at the last point is
  numerator / denominator of that state.
-/
import proofs.«120756_j43568148251343_2_alg».proof.Proof.KPieces
import proofs.«120756_j43568148251343_2_alg».proof.Proof.KStep
import proofs.«120756_j43568148251343_2_alg».proof.Proof.LibOnlineSoftmax

noncomputable section

namespace Cert.KernelIdeal.StepState

open Idealize.ShloMosaic Idealize.ShloMosaic.ValueIdx
open Cert.KernelIdeal Cert.KernelIdeal.Gen Cert.KernelIdeal.Pieces Cert.KernelIdeal.Step Cert.LibOnlineSoftmax

variable (x0 : Vec Ideal S8x128x1024 .f32) (x1 : Vec Ideal S8x128x1 .i32) (x2 : Vec Ideal S1024x1024 .bf16) (x3 : Vec Ideal S1x1024 .f32)
variable (pm pl : Vec Ideal S8x1 .f32) (pa : Vec Ideal S8x1024 .f32)
variable (sS sV : ℕ → Fin 128 → EReal) (k : ℕ) (r : Fin 8)

/-- The joined maximum is the next state's maximum. -/
theorem tmax_eq (hs : ∀ s, tsc x0 x1 x2 x3 r s = sS k s) (hm : pm (ix2 r 0) = (state sS sV k).m) :
    tmax x0 x1 x2 x3 pm r = (state sS sV (k + 1)).m := by
  unfold tmax
  rw [state_succ_m, hm, show (fun s : Fin 128 => tsc x0 x1 x2 x3 r s) = sS k from funext hs]

/-- The new maximum. -/
theorem step_m (hs : ∀ s, tsc x0 x1 x2 x3 r s = sS k s) (hm : pm (ix2 r 0) = (state sS sV k).m) :
    mNew x0 x1 x2 x3 pm (ix2 r 0) = (state sS sV (k + 1)).m := by
  show k0_pay3 (k0_pay9 x0 x2 x3 x1 pm) (ix2 r 0) = _
  rw [pay3_eq, pay9_apply, tmax_eq x0 x1 x2 x3 pm sS sV k r hs hm]

/-- The new denominator. -/
theorem step_l (hs : ∀ s, tsc x0 x1 x2 x3 r s = sS k s) (hm : pm (ix2 r 0) = (state sS sV k).m)
    (hl : pl (ix2 r 0) = (state sS sV k).l) :
    lNew x0 x1 x2 x3 pm pl (ix2 r 0) = (state sS sV (k + 1)).l := by
  show k0_pay1 (k0_pay12 x0 x2 x3 x1 pm pl) (ix2 r 0) = _
  rw [pay1_eq, pay12_apply, tmax_eq x0 x1 x2 x3 pm sS sV k r hs hm, state_succ_l, hm, hl]
  simp only [hs]

/-- The new numerator of feature e. -/
theorem step_a (e : Fin 1024) (hs : ∀ s, tsc x0 x1 x2 x3 r s = sS k s) (hx : ∀ s, x0 (ix3 r s e) = sV k s)
    (hm : pm (ix2 r 0) = (state sS sV k).m) (ha : pa (ix2 r e) = (state sS sV k).a) :
    aNew x0 x1 x2 x3 pm pa (ix2 r e) = (state sS sV (k + 1)).a := by
  show k0_pay2 x0 (k0_pay10 x0 x2 x3 x1 pm) (k0_pay11 x0 x2 x3 x1 pm) pa (ix2 r e) = _
  rw [pay2_apply, pay10_apply, tmax_eq x0 x1 x2 x3 pm sS sV k r hs hm, state_succ_a, hm, ha]
  simp only [pay11_apply, tmax_eq x0 x1 x2 x3 pm sS sV k r hs hm, hs, hx]

/-- The quotient the last point stores. -/
theorem step_out (e : Fin 1024) (hs : ∀ s, tsc x0 x1 x2 x3 r s = sS k s) (hx : ∀ s, x0 (ix3 r s e) = sV k s)
    (hm : pm (ix2 r 0) = (state sS sV k).m) (hl : pl (ix2 r 0) = (state sS sV k).l)
    (ha : pa (ix2 r e) = (state sS sV k).a) :
    k0_pay4 (aNew x0 x1 x2 x3 pm pa) (lNew x0 x1 x2 x3 pm pl) (ix2 r e)
      = Ideal.div (state sS sV (k + 1)).a (state sS sV (k + 1)).l := by
  rw [pay4_apply, step_a x0 x1 x2 x3 pm pa sS sV k r e hs hx hm ha, step_l x0 x1 x2 x3 pm pl sS sV k r hs hm hl]

end Cert.KernelIdeal.StepState

end
-- ==== Proof.KBlocks.lean ====
/-
  The program's blocks read at an index, and its output array from the blocks written back.

  The program works on a 4 × 16 grid of points; point t has the coordinates (t / 16, t % 16).  At point t it sees
  rows 8 (t / 16) … 8 (t / 16) + 7 and positions 128 (t % 16) … 128 (t % 16) + 127 of the first input (32 × 2048 × 1024)
  and of the mask (32 × 2048, with a unit axis appended before the grid is entered), the whole of a 1024 × 1024 matrix
  — the transpose of the sum of the second and third inputs, formed before the grid is entered — and the whole of the
  1 × 1024 row vector.  It writes rows 8 (t / 16) … 8 (t / 16) + 7 of the 32 × 1024 output, and only at the last point
  of each tile of rows (t % 16 = 15).  This file reads each block at an index in terms of the argument arrays, and
  shows that the output array after all points is the function G whenever the block left at each last point is G on
  that point's rows: the four last points' rows cover the 32 rows.
-/
import proofs.«120756_j43568148251343_2_alg».proof.Proof.Gen.KernelIdeal.Value
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-- Row r of the tile of 8 rows that point t works on is a row of the 32. -/
theorem row_lt (t : Fin cfg0.N) (r : Fin 8) : 8 * (t.val / 16) + r.val < 32 := by
  have h1 := t.isLt; have h2 : cfg0.N = 64 := N_0; have h3 := r.isLt; omega

/-- Position s of the tile of 128 positions that point t works on is a position of the 2048. -/
theorem col_lt (t : Fin cfg0.N) (s : Fin 128) : 128 * (t.val % 16) + s.val < 2048 := by
  have h3 := s.isLt; omega

/-! ## The five argument arrays, as functions of their indices -/

/-- The first input, 32 × 2048 × 1024. -/
abbrev A0 : S32x2048x1024.Idx → EReal := m ((c : Thread nD τ).loc main_arg0)
/-- The mask, 32 × 2048 integer words. -/
abbrev A1 : S32x2048.Idx → BitVec 32 := m ((c : Thread nD τ).loc main_arg1)
/-- The first matrix, 1024 × 1024. -/
abbrev A2 : S1024x1024.Idx → EReal := m ((c : Thread nD τ).loc main_arg2)
/-- The second matrix, 1024 × 1024. -/
abbrev A3 : S1024x1024.Idx → EReal := m ((c : Thread nD τ).loc main_arg3)
/-- The row vector, 1 × 1024. -/
abbrev A4 : S1x1024.Idx → EReal := m ((c : Thread nD τ).loc main_arg4)

/-! ## The index maps, decided over the grid -/

/-- Point t works on tile t / 16 of the rows and tile t % 16 of the positions of the first input. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

/-- … and on the same tiles of the mask. -/
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)

/-- The matrix is taken whole at every point. -/
theorem idx2 : ∀ t : Fin cfg0.N, win0_2.index t (0 : Fin 2) = 0 ∧ win0_2.index t (1 : Fin 2) = 0 :=
  (by decide +kernel : ∀ t : Fin grid0.N, _)

/-- The row vector is taken whole at every point. -/
theorem idx3 : ∀ t : Fin cfg0.N, win0_3.index t (0 : Fin 2) = 0 ∧ win0_3.index t (1 : Fin 2) = 0 :=
  (by decide +kernel : ∀ t : Fin grid0.N, _)

/-- Point t works on tile t / 16 of the rows of the output. -/
theorem idx4 : ∀ t : Fin cfg0.N, win0_4.index t (0 : Fin 2) = t.val / 16 ∧ win0_4.index t (1 : Fin 2) = 0 :=
  (by decide +kernel : ∀ t : Fin grid0.N, _)

/-! ## The arrays the operations before the region write -/

/-- The mask with a unit axis appended. -/
theorem V_v3 : (V m c main_v3 : S32x2048x1.Idx → BitVec 32)
    = broadcastInDim S32x2048x1 ![0, 1] bcast_S32x2048_S32x2048x1_0_1 (A1 m c) := by
  dsimp only [Gen.V, Gen.hostOps0]; after_results

/-- The sum of the two matrices, transposed (the change of format is the identity on the extended reals). -/
theorem V_v2 : (V m c main_v2 : S1024x1024.Idx → EReal)
    = truncf (F := Ideal) .bf16 (transpose S1024x1024 [1, 0] (addf (F := Ideal) (φ := .f32) (A2 m c) (A3 m c)) transposes_S1024x1024_S1024x1024_1_0) bitsLt_bf16_f32 := by
  dsimp only [Gen.V, Gen.hostOps0]; after_results

/-! ## The blocks read at an index -/

/-- The block of the first input at point t: entry (r, s, e) is the input's entry (8 (t / 16) + r, 128 (t % 16) + s, e). -/
theorem iblk0_apply (t : Fin cfg0.N) (r : Fin 8) (s : Fin 128) (e : Fin 1024) :
    (iblk m c 0 t : Vec Ideal S8x128x1024 .f32) (ix3 r s e)
      = A0 m c (ix3 (⟨8 * (t.val / 16) + r.val, row_lt t r⟩ : Fin 32) (⟨128 * (t.val % 16) + s.val, col_lt t s⟩ : Fin 2048) e) := by
  obtain ⟨e0, e1, e2⟩ := idx0 t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 8 + 1 * r.val = 8 * (t.val / 16) + r.val; omega
  | ⟨1, _⟩ => show win0_0.index t (1 : Fin 3) * 128 + 1 * s.val = 128 * (t.val % 16) + s.val; omega
  | ⟨2, _⟩ => show win0_0.index t (2 : Fin 3) * 1024 + 1 * e.val = e.val; omega

/-- The block of the mask at point t: entry (r, s, 0) is the mask's word (8 (t / 16) + r, 128 (t % 16) + s). -/
theorem iblk1_apply (t : Fin cfg0.N) (r : Fin 8) (s : Fin 128) :
    (iblk m c 1 t : Vec Ideal S8x128x1 .i32) (ix3 r s 0)
      = A1 m c (ix2 (⟨8 * (t.val / 16) + r.val, row_lt t r⟩ : Fin 32) (⟨128 * (t.val % 16) + s.val, col_lt t s⟩ : Fin 2048)) := by
  obtain ⟨e0, e1, e2⟩ := idx1 t
  unfold iblk
  rw [View.read_apply]
  show V m c main_v3 _ = m (c.tc.loc main_arg1) _
  rw [V_v3]
  refine broadcastInDim_apply _ _ _ _ _ fun a => ?_
  match a with
  | ⟨0, _⟩ =>
    show 8 * (t.val / 16) + r.val = if (32 : Nat) = 1 then 0 else win0_1.index t (0 : Fin 3) * 8 + 1 * r.val
    rw [if_neg (by decide)]; omega
  | ⟨1, _⟩ =>
    show 128 * (t.val % 16) + s.val = if (2048 : Nat) = 1 then 0 else win0_1.index t (1 : Fin 3) * 128 + 1 * s.val
    rw [if_neg (by decide)]; omega

/-- The block of the matrix at every point is the whole matrix: entry (e, u) is the sum of the two matrices' entries (u, e). -/
theorem iblk2_apply (t : Fin cfg0.N) (e u : Fin 1024) :
    (iblk m c 2 t : Vec Ideal S1024x1024 .bf16) (ix2 e u)
      = A2 m c (ix2 u e) + A3 m c (ix2 u e) := by
  obtain ⟨e0, e1⟩ := idx2 t
  unfold iblk
  rw [View.read_apply]
  show V m c main_v2 _ = _
  rw [V_v2, truncf_apply]
  refine (transpose_apply _ _ _ _ (ix2 u e) fun b => ?_).trans (addf_apply _ _ _)
  match b with
  | ⟨0, _⟩ => show e.val = win0_2.index t (0 : Fin 2) * 1024 + 1 * e.val; omega
  | ⟨1, _⟩ => show u.val = win0_2.index t (1 : Fin 2) * 1024 + 1 * u.val; omega

/-- The block of the row vector at every point is the whole row vector. -/
theorem iblk3_apply (t : Fin cfg0.N) (u : Fin 1024) :
    (iblk m c 3 t : Vec Ideal S1x1024 .f32) (ix2 0 u) = A4 m c (ix2 0 u) := by
  obtain ⟨e0, e1⟩ := idx3 t
  unfold iblk
  rw [View.read_apply]
  show V m c main_arg4 _ = m (c.tc.loc main_arg4) _
  rw [V_main_arg4]
  congr 1
  funext a
  apply Fin.ext
  match a with
  | ⟨0, _⟩ => show win0_3.index t (0 : Fin 2) * 1 + 1 * 0 = 0; omega
  | ⟨1, _⟩ => show win0_3.index t (1 : Fin 2) * 1024 + 1 * u.val = u.val; omega

/-- The output's block is written back at the last point of each tile of rows, and only there. -/
theorem flush4_iff (t : Fin cfg0.N) : (cfg0.win 4).flush t = true ↔ t.val % 16 = 15 := flush0_4 t

/-! ## The output array from the blocks written back -/

/-- The point that writes back the tile of rows holding row b is the last point of that tile. -/
theorem last_lt (b : Fin 32) : 16 * (b.val / 8) + 15 < cfg0.N := by
  have h1 := b.isLt; have h2 : cfg0.N = 64 := N_0; omega

/-- An index of the output array is in point t's block exactly when each coordinate is in the block's range on its axis. -/
theorem mem_blk4 (t : Fin cfg0.N) (i : S32x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v4).slice (win0_4.rect t)).set ↔ _
  rw [View.set_slice_whole, Rect.mem_set_unit]
  exact Iff.rfl

/-- What a last point t writes back is the block of G at that point, when the block it leaves is G on the point's rows. -/
theorem flushed4_eq (G : S32x1024.Idx → EReal)
    (hG : ∀ (t : Fin cfg0.N), t.val % 16 = 15 → ∀ (r : Fin 8) (e : Fin 1024),
      (outsAt0 m c t.val t.isLt).1 (ix2 r e) = G (ix2 (⟨8 * (t.val / 16) + r.val, row_lt t r⟩ : Fin 32) e))
    (t : Fin cfg0.N) (hf : (cfg0.win 4).flush t = true) :
    (dats m 0 c).flushed 4 t = ((cfg0.win 4).blk t).view.read (Elt Ideal) G := by
  have h15 : t.val % 16 = 15 := (flush0_4 t).mp hf
  obtain ⟨e0, e1⟩ := idx4 t
  rw [Value.flushed4]
  funext j
  rw [View.read_apply]
  have hj0 : (j 0).val < 8 := (j 0).isLt
  have hj1 : (j 1).val < 1024 := (j 1).isLt
  have hL : (cfg0.win 4).xinj (grid0.coords t) j = ix2 (⟨(j 0).val, hj0⟩ : Fin 8) (⟨(j 1).val, hj1⟩ : Fin 1024) := by
    funext a
    match a with
    | ⟨0, _⟩ => rfl
    | ⟨1, _⟩ => rfl
  show (outsAt0 m c t.val t.isLt).1 ((cfg0.win 4).xinj (grid0.coords t) j) = G (((cfg0.win 4).blk t).view.emb j)
  rw [hL, hG t h15]
  refine congrArg G (funext fun a => Fin.ext ?_)
  match a with
  | ⟨0, _⟩ => show 8 * (t.val / 16) + (j 0).val = win0_4.index t (0 : Fin 2) * 8 + 1 * (j 0).val; omega
  | ⟨1, _⟩ => show (j 1).val = win0_4.index t (1 : Fin 2) * 1024 + 1 * (j 1).val; omega

/-- The output array after the run, from what the last point of each tile of rows leaves in the output block: if that
    block is G on the point's rows, the array is G. -/
theorem final_of (G : S32x1024.Idx → EReal)
    (hG : ∀ (t : Fin cfg0.N), t.val % 16 = 15 → ∀ (r : Fin 8) (e : Fin 1024),
      (outsAt0 m c t.val t.isLt).1 (ix2 r e) = G (ix2 (⟨8 * (t.val / 16) + r.val, row_lt t r⟩ : Fin 32) e)) :
    (dats m 0 c).arrAt 4 cfg0.N = G :=
  (dats m 0 c).arrAt_eq_of_cover 4 G (flushed4_eq m c G hG) fun i => by
    have hi0 : (i 0).val < 32 := (i 0).isLt
    have hi1 : (i 1).val < 1024 := (i 1).isLt
    let t : Fin cfg0.N := ⟨16 * ((i 0).val / 8) + 15, last_lt ⟨(i 0).val, hi0⟩⟩
    have ht : t.val = 16 * ((i 0).val / 8) + 15 := rfl
    obtain ⟨e0, e1⟩ := idx4 t
    refine ⟨t, (flush0_4 t).mpr (by omega), ?_⟩
    rw [mem_blk4]
    intro a
    match a with
    | ⟨0, _⟩ => show win0_4.index t (0 : Fin 2) * 8 ≤ (i 0).val ∧ (i 0).val < win0_4.index t (0 : Fin 2) * 8 + 8; omega
    | ⟨1, _⟩ => show win0_4.index t (1 : Fin 2) * 1024 ≤ (i 1).val ∧ (i 1).val < win0_4.index t (1 : Fin 2) * 1024 + 1024; omega

end Cert.KernelIdeal.Blocks

end
-- ==== Proof.KInduct.lean ====
/-
  The carried buffers after every grid point are the online softmax recurrence's state, row by row.

  Grid point n works on batch tile n / 16 (rows 8·(n / 16) + r, r < 8) and sequence tile n % 16 (positions
  128·(n % 16) + s, s < 128). After it, for row b = 8·(n / 16) + r and feature e, the three carried buffers hold at
  (r, 0), (r, 0), (r, e) the maximum, the denominator and the numerator of the recurrence's state after n % 16 + 1
  tiles of the row's scores and of its feature e: by induction on the point — the first point of a batch tile updates
  the freshly stored (−∞, 0, 0), the state after no tile, every other point what the point before left. After the
  last point of a batch tile the output block holds numerator / denominator of the state after all 16 tiles.
-/
import proofs.«120756_j43568148251343_2_alg».proof.Proof.KOuts
import proofs.«120756_j43568148251343_2_alg».proof.Proof.KStepState
import proofs.«120756_j43568148251343_2_alg».proof.Proof.KBlocks
import proofs.«120756_j43568148251343_2_alg».proof.Proof.KArgs
import proofs.«120756_j43568148251343_2_alg».proof.Proof.BridgeMath

noncomputable section

namespace Cert.KernelIdeal.Induct

open Idealize.ShloMosaic Idealize.ShloMosaic.ValueIdx Idealize.ShloMosaic.TcCoe Idealize.SL.Sem
open Cert.KernelIdeal Cert.KernelIdeal.Gen Cert.KernelIdeal.Pieces Cert.KernelIdeal.Outs Cert.KernelIdeal.Step
open Cert.KernelIdeal.StepState Cert.KernelIdeal.Blocks Cert.KernelIdeal.Args Cert.BridgeMath Cert.LibOnlineSoftmax

variable (m : (ℓ : Loc nD τ sig) → Buf (Elt Ideal) ℓ) (c : Dev nD)

/-- Row r of the batch tile point n works on. -/
def rowOf (n : ℕ) (hn : n < cfg0.N) (r : Fin 8) : Fin 32 :=
  ⟨8 * (n / 16) + r.val, by have h : cfg0.N = 64 := N_0; have := r.isLt; omega⟩

/-- The point's feature block reads the features of its rows and positions. -/
theorem blk0_apply (t : Fin cfg0.N) (r : Fin 8) (s : Fin 128) (e : Fin 1024) :
    blk0 m c t (ix3 r s e) = tileX (X m c) (rowOf t.val t.isLt r) e (t.val % 16) s := by
  unfold tileX
  rw [dif_pos (Nat.mod_lt _ (by norm_num))]
  exact iblk0_apply m c t r s e

/-- The point's masked scores are tile n % 16 of its rows' scores. -/
theorem tsc_global (t : Fin cfg0.N) (r : Fin 8) (s : Fin 128) :
    tsc (blk0 m c t) (blk1 m c t) (blk2 m c t) (blk3 m c t) r s = tileS (scK m c) (rowOf t.val t.isLt r) (t.val % 16) s := by
  unfold tileS
  rw [dif_pos (Nat.mod_lt _ (by norm_num))]
  unfold tsc scK Cert.Pool.score Cert.Pool.projMerged
  have e1 : blk1 m c t (ix3 r s 0) = MK m c (rowOf t.val t.isLt r) ⟨128 * (t.val % 16) + s.val, by have := s.isLt; omega⟩ :=
    iblk1_apply m c t r s
  have e0 : ∀ e : Fin 1024, blk0 m c t (ix3 r s e) = X m c (rowOf t.val t.isLt r) ⟨128 * (t.val % 16) + s.val, by have := s.isLt; omega⟩ e :=
    fun e => iblk0_apply m c t r s e
  have e2 : ∀ e u : Fin 1024, blk2 m c t (ix2 e u) = Wm m c u e + Um m c u e := fun e u => iblk2_apply m c t e u
  have e3 : ∀ u : Fin 1024, blk3 m c t (ix2 0 u) = Vv m c u := fun u => iblk3_apply m c t u
  simp only [e1, e0, e2, e3]

/-- One point advances every row's state by one tile. -/
theorem inv_step (t : Fin cfg0.N) (k : ℕ) (hk : t.val % 16 = k) (pm pl : Vec Ideal S8x1 .f32) (pa : Vec Ideal S8x1024 .f32)
    (r : Fin 8) (e : Fin 1024)
    (hm : pm (ix2 r 0) = (state (tileS (scK m c) (rowOf t.val t.isLt r)) (tileX (X m c) (rowOf t.val t.isLt r) e) k).m)
    (hl : pl (ix2 r 0) = (state (tileS (scK m c) (rowOf t.val t.isLt r)) (tileX (X m c) (rowOf t.val t.isLt r) e) k).l)
    (ha : pa (ix2 r e) = (state (tileS (scK m c) (rowOf t.val t.isLt r)) (tileX (X m c) (rowOf t.val t.isLt r) e) k).a) :
    mNew (blk0 m c t) (blk1 m c t) (blk2 m c t) (blk3 m c t) pm (ix2 r 0)
        = (state (tileS (scK m c) (rowOf t.val t.isLt r)) (tileX (X m c) (rowOf t.val t.isLt r) e) (k + 1)).m
    ∧ lNew (blk0 m c t) (blk1 m c t) (blk2 m c t) (blk3 m c t) pm pl (ix2 r 0)
        = (state (tileS (scK m c) (rowOf t.val t.isLt r)) (tileX (X m c) (rowOf t.val t.isLt r) e) (k + 1)).l
    ∧ aNew (blk0 m c t) (blk1 m c t) (blk2 m c t) (blk3 m c t) pm pa (ix2 r e)
        = (state (tileS (scK m c) (rowOf t.val t.isLt r)) (tileX (X m c) (rowOf t.val t.isLt r) e) (k + 1)).a
    ∧ k0_pay4 (aNew (blk0 m c t) (blk1 m c t) (blk2 m c t) (blk3 m c t) pm pa) (lNew (blk0 m c t) (blk1 m c t) (blk2 m c t) (blk3 m c t) pm pl) (ix2 r e)
        = Ideal.div (state (tileS (scK m c) (rowOf t.val t.isLt r)) (tileX (X m c) (rowOf t.val t.isLt r) e) (k + 1)).a
            (state (tileS (scK m c) (rowOf t.val t.isLt r)) (tileX (X m c) (rowOf t.val t.isLt r) e) (k + 1)).l := by
  subst hk
  have hs := tsc_global m c t r
  have hx := fun s => blk0_apply m c t r s e
  exact ⟨step_m _ _ _ _ pm _ _ _ r hs hm, step_l _ _ _ _ pm pl _ _ _ r hs hm hl, step_a _ _ _ _ pm pa _ _ _ r e hs hx hm ha,
    step_out _ _ _ _ pm pl pa _ _ _ r e hs hx hm hl ha⟩

/-- What the carried buffers hold after point n, for row r and feature e: the state after n % 16 + 1 tiles. -/
def Inv (n : ℕ) (hn : n < cfg0.N) : Prop :=
  ∀ (r : Fin 8) (e : Fin 1024),
    (outsAt0 m c n hn).2.1 (ix2 r 0)
        = (state (tileS (scK m c) (rowOf n hn r)) (tileX (X m c) (rowOf n hn r) e) (n % 16 + 1)).m
    ∧ (outsAt0 m c n hn).2.2.1 (ix2 r 0)
        = (state (tileS (scK m c) (rowOf n hn r)) (tileX (X m c) (rowOf n hn r) e) (n % 16 + 1)).l
    ∧ (outsAt0 m c n hn).2.2.2 (ix2 r e)
        = (state (tileS (scK m c) (rowOf n hn r)) (tileX (X m c) (rowOf n hn r) e) (n % 16 + 1)).a

/-- The state before point n, when it is not the first of its batch tile: what the point before left. -/
theorem prev_of_inv (n : ℕ) (hn : n < cfg0.N) (h0 : ¬n % 16 = 0) (hp : Inv m c (n - 1) (by omega)) (k : ℕ) (hk : n % 16 = k + 1)
    (r : Fin 8) (e : Fin 1024) :
    prevM m c ⟨n, hn⟩ (ix2 r 0) = (state (tileS (scK m c) (rowOf n hn r)) (tileX (X m c) (rowOf n hn r) e) (k + 1)).m
    ∧ prevL m c ⟨n, hn⟩ (ix2 r 0) = (state (tileS (scK m c) (rowOf n hn r)) (tileX (X m c) (rowOf n hn r) e) (k + 1)).l
    ∧ prevA m c ⟨n, hn⟩ (ix2 r e) = (state (tileS (scK m c) (rowOf n hn r)) (tileX (X m c) (rowOf n hn r) e) (k + 1)).a := by
  have e1 : (n - 1) % 16 + 1 = k + 1 := by omega
  have e2 : rowOf (n - 1) (by omega) r = rowOf n hn r := Fin.ext (by simp only [rowOf]; omega)
  have h := hp r e
  rw [e1, e2] at h
  exact h

theorem inv : ∀ (n : ℕ) (hn : n < cfg0.N), Inv m c n hn := by
  intro n
  induction n using Nat.strong_induction_on with
  | _ n ih =>
    intro hn r e
    have hN : cfg0.N = 64 := N_0
    by_cases h0 : n % 16 = 0
    · have h1 : ¬n % 16 = 15 := by omega
      have hm := outs_A_m m c ⟨n, hn⟩ h0 h1
      have hl := outs_A_l m c ⟨n, hn⟩ h0 h1
      have ha := outs_A_a m c ⟨n, hn⟩ h0 h1
      obtain ⟨sm, sl, sa, -⟩ := inv_step m c ⟨n, hn⟩ 0 h0 (k0_pay5 (F := Ideal)) (k0_pay6 (F := Ideal)) (k0_pay7 (F := Ideal)) r e (pay5_apply _) (pay6_apply _) (pay7_apply _)
      rw [h0]
      exact ⟨(congrFun hm _).trans sm, (congrFun hl _).trans sl, (congrFun ha _).trans sa⟩
    · obtain ⟨k, hk⟩ : ∃ k, n % 16 = k + 1 := ⟨n % 16 - 1, by omega⟩
      obtain ⟨pm, pl, pa⟩ := prev_of_inv m c n hn h0 (ih (n - 1) (by omega) (by omega)) k hk r e
      obtain ⟨sm, sl, sa, -⟩ := inv_step m c ⟨n, hn⟩ (k + 1) hk (prevM m c ⟨n, hn⟩) (prevL m c ⟨n, hn⟩) (prevA m c ⟨n, hn⟩) r e pm pl pa
      rw [hk]
      by_cases h1 : n % 16 = 15
      · have hm := outs_C_m m c ⟨n, hn⟩ h0 h1
        have hl := outs_C_l m c ⟨n, hn⟩ h0 h1
        have ha := outs_C_a m c ⟨n, hn⟩ h0 h1
        exact ⟨(congrFun hm _).trans sm, (congrFun hl _).trans sl, (congrFun ha _).trans sa⟩
      · have hm := outs_B_m m c ⟨n, hn⟩ h0 h1
        have hl := outs_B_l m c ⟨n, hn⟩ h0 h1
        have ha := outs_B_a m c ⟨n, hn⟩ h0 h1
        exact ⟨(congrFun hm _).trans sm, (congrFun hl _).trans sl, (congrFun ha _).trans sa⟩

/-- After the last point of a batch tile the output block holds, at (r, e), numerator / denominator of the state after
    all 16 tiles of row 8·(n / 16) + r. -/
theorem out_last (t : Fin cfg0.N) (h15 : t.val % 16 = 15) (r : Fin 8) (e : Fin 1024) :
    (outsAt0 m c t.val t.isLt).1 (ix2 r e)
      = Ideal.div (state (tileS (scK m c) (rowOf t.val t.isLt r)) (tileX (X m c) (rowOf t.val t.isLt r) e) 16).a
          (state (tileS (scK m c) (rowOf t.val t.isLt r)) (tileX (X m c) (rowOf t.val t.isLt r) e) 16).l := by
  have hN : cfg0.N = 64 := N_0
  have h0 : ¬t.val % 16 = 0 := by omega
  obtain ⟨pm, pl, pa⟩ := prev_of_inv m c t.val t.isLt h0 (inv m c (t.val - 1) (by have := t.isLt; omega)) 14 h15 r e
  obtain ⟨-, -, -, so⟩ := inv_step m c t 15 h15 (prevM m c t) (prevL m c t) (prevA m c t) r e pm pl pa
  have ho := outs_C_o m c t h0 h15
  exact (congrFun ho _).trans so

end Cert.KernelIdeal.Induct

end
-- ==== Proof.KFinal.lean ====
/-
  The kernel's result array: entry (b, e) is numerator / denominator of the online softmax recurrence after all 16
  tiles of row b, for feature e.

  The output's blocks are written back after the last point of each batch tile only; block (n / 16) holds the rows
  8·(n / 16) + r, and these four blocks cover the 32 rows.
-/
import proofs.«120756_j43568148251343_2_alg».proof.Proof.KInduct

noncomputable section

namespace Cert.KernelIdeal.Final

open Idealize.ShloMosaic Idealize.ShloMosaic.ValueIdx Idealize.ShloMosaic.TcCoe Idealize.SL.Sem
open Cert.KernelIdeal Cert.KernelIdeal.Gen Cert.KernelIdeal.Blocks Cert.KernelIdeal.Args Cert.KernelIdeal.Induct
open Cert.BridgeMath Cert.LibOnlineSoftmax

variable (m : (ℓ : Loc nD τ sig) → Buf (Elt Ideal) ℓ) (c : Dev nD)

/-- The quotient of row b and feature e after all 16 tiles. -/
def quot (b : Fin 32) (e : Fin 1024) : EReal :=
  Ideal.div (state (tileS (scK m c) b) (tileX (X m c) b e) 16).a (state (tileS (scK m c) b) (tileX (X m c) b e) 16).l

/-- The result array as one function of the arguments. -/
def G : S32x1024.Idx → EReal := fun i => quot m c (i 0) (i 1)

/-- After the run the result array is G. -/
theorem arr_eq : (dats m 0 c).arrAt 4 cfg0.N = G m c :=
  final_of m c (G m c) fun t h15 r e => out_last m c t h15 r e

/-- The result array at (b, e). -/
theorem kernel_out (b : Fin 32) (e : Fin 1024) :
    (dats m 0 c).arrAt 4 cfg0.N (ix2 b e)
      = Ideal.div (state (tileS (scK m c) b) (tileX (X m c) b e) 16).a (state (tileS (scK m c) b) (tileX (X m c) b e) 16).l := by
  rw [arr_eq]; rfl

end Cert.KernelIdeal.Final

end
-- ==== Proof.Claims.lean ====
/-
  The five claims.

  Both kernels and the reference run to the end, and their argument arrays end as they began.  The one named constant of
  the idealized kernel, the value a masked position's score is replaced by, is −∞ by the certificate's table.  At the
  ideal instance the kernel's result array holds at (b, e) the online recurrence's numerator over its denominator after
  the 16 tiles of row b; where the precondition holds that quotient is the pooled feature e of row b, which is the
  reference's result at (b, e); so from arguments that agree the two programs end with equal results.
-/
import proofs.«120756_j43568148251343_2_alg».proof.Defs
import proofs.«120756_j43568148251343_2_alg».proof.Proof.Gen.Kernel.Frame
import proofs.«120756_j43568148251343_2_alg».proof.Proof.Gen.KernelIdeal.Frame
import proofs.«120756_j43568148251343_2_alg».proof.Proof.Gen.KernelIdeal.Value
import proofs.«120756_j43568148251343_2_alg».proof.Proof.Gen.ReferenceIdeal.Run
import proofs.«120756_j43568148251343_2_alg».proof.Proof.Gen.ReferenceIdeal.Read
import proofs.«120756_j43568148251343_2_alg».proof.Proof.Gen.Pre_finite_inputs
import proofs.«120756_j43568148251343_2_alg».proof.Proof.Bridge
import proofs.«120756_j43568148251343_2_alg».proof.Proof.KFinal

noncomputable section

open Idealize.ShloMosaic Idealize.ShloMosaic.TcCoe Idealize.SL.Sem

namespace Cert.Proof.Claims

/-- The kernel runs to the end and leaves its five argument arrays unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run ends with the result at the operations' composed term and the arguments unchanged;
    the second half is the claim. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the certificate's table gives "neg_big", the score of a masked position, the value −∞,
    and the constant printed under that name is that value at the ideal instance. -/
theorem preserves : Cert.preserves_Kernel_KernelIdeal :=
  IdealRules.named_const.statement Cert.KernelIdeal.κ "neg_big" .f32 0xFF333332#32 ⊥ rfl

/-- At the ideal instance, from arguments that agree and of which the precondition holds, the kernel's result array and
    the reference's are equal entry by entry.  The kernel's array holds at (b, e) the quotient of the online recurrence
    after the 16 tiles of row b; under the precondition that quotient is the reference's result at (b, e): both are the
    softmax of row b's scores against feature e. -/
theorem algebraic : Cert.algebraic_KernelIdeal_ReferenceIdeal := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  -- the reference's result is its last stage, of arguments that are the kernel's
  rw [Cert.ReferenceIdeal.Read.val_main_v22_eq, (hagree c).1, (hagree c).2.1, (hagree c).2.2.1, (hagree c).2.2.2.1,
    (hagree c).2.2.2.2]
  funext i
  obtain ⟨b, e, rfl⟩ : ∃ (b : Fin 32) (e : Fin 1024), i = ValueIdx.ix2 b e := ⟨i 0, i 1, ValueIdx.eq_ix2 i⟩
  exact (Cert.Bridge.kernel_eq_ref m hpre c b e).symm.trans (Cert.KernelIdeal.Final.kernel_out m c b e).symm

end Cert.Proof.Claims

end
-- ==== Proof.lean ====
/-
  Attention pooling: the online softmax over sequence tiles against the two-pass softmax.

  The arguments are the features x b j e (32 rows, 2048 positions, 1024 features), a mask word for every position, two
  weight matrices W u e and U u e (1024 units by 1024 features) and a scoring vector v u.

  The reference projects the features twice and adds, q b j u = Σ_e x b j e · W u e + Σ_e x b j e · U u e; a position's
  score is s b j = Σ_u tanh (q b j u) · v u, replaced by −∞ where the mask word is zero; and the result is the softmax of
  a row's scores against the row's features: with M b the largest score of row b,

      result b e = Σ_j  exp (s b j − M b) / (Σ_j' exp (s b j' − M b)) · x b j e.

  The kernel projects once, with the merged matrix, q b j u = Σ_e x b j e · (W u e + U u e), gives a masked position the
  score named "neg_big", which is −∞ at the ideal instance, and never forms a whole row of scores.  It reads a row in 16
  tiles of 128 positions and carries a running maximum m, a running denominator l and a running numerator a, from
  (−∞, 0, 0): reading a tile with largest score μ it passes to

      m' = max (m, μ),    l' = exp (m − m') · l + Σ_u exp (s u − m'),    a' = exp (m − m') · a + Σ_u exp (s u − m') · x u e,

  and after the last tile it stores a / l.

  Three laws join the two sides, each used only where its terms are known to be real numbers or −∞.  For real features
  and real matrices a product distributes over a sum, so the merged projection is the sum of the two projections and
  the kernel's scores are the reference's.  For x ≤ m ≤ m' < +∞, exp (m − m') · exp (x − m) = exp (x − m'), with
  exp (−∞) = 0; so after every tile m is the largest score read so far and l and a are the sums of exp (s − m) and of
  exp (s − m) · x over the positions read so far.  And a sum of real numbers divided by a positive real number is the
  sum of the quotients, so a / l after the 16 tiles is the sum over the row of the softmax weights times the features.

  The precondition says that the features, both matrices and the vector are real numbers at every entry, and that every
  row has a position whose mask word is not zero.  The first makes every score a real number or −∞, never +∞.  The
  second excludes the row whose every score is −∞: there the largest score is −∞, every weight is exp (−∞) = 0, the
  denominator is 0, and 0 / 0 says nothing about the features.  With one score of the row a real number, the largest
  score is a real number and the denominator is a positive real number, and the laws above apply.

  The kernels and the reference also run to the end with their arguments unchanged, and "neg_big" is −∞ by the
  certificate's table.
-/
import proofs.«120756_j43568148251343_2_alg».proof.Defs
import proofs.«120756_j43568148251343_2_alg».proof.Proof.Gen.Kernel
import proofs.«120756_j43568148251343_2_alg».proof.Proof.Gen.Kernel.Skeleton
import proofs.«120756_j43568148251343_2_alg».proof.Proof.Gen.Kernel.Launch
import proofs.«120756_j43568148251343_2_alg».proof.Proof.Gen.Kernel.Points
import proofs.«120756_j43568148251343_2_alg».proof.Proof.Gen.Kernel.Frame
import proofs.«120756_j43568148251343_2_alg».proof.Proof.Gen.KernelIdeal
import proofs.«120756_j43568148251343_2_alg».proof.Proof.Gen.KernelIdeal.Skeleton
import proofs.«120756_j43568148251343_2_alg».proof.Proof.Gen.KernelIdeal.Launch
import proofs.«120756_j43568148251343_2_alg».proof.Proof.Gen.KernelIdeal.Points
import proofs.«120756_j43568148251343_2_alg».proof.Proof.Gen.KernelIdeal.Frame
import proofs.«120756_j43568148251343_2_alg».proof.Proof.Gen.KernelIdeal.Value
import proofs.«120756_j43568148251343_2_alg».proof.Proof.Gen.ReferenceIdeal
import proofs.«120756_j43568148251343_2_alg».proof.Proof.Gen.ReferenceIdeal.Run
import proofs.«120756_j43568148251343_2_alg».proof.Proof.Gen.ReferenceIdeal.Read
import proofs.«120756_j43568148251343_2_alg».proof.Proof.Gen.Pre_finite_inputs
import Idealize.ShloMosaic.Adequacy
import Idealize.ShloMosaic.Init
import proofs.«120756_j43568148251343_2_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
